-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v68)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v68) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg5 : FVec F S32 .f32) (main_v13 : IVec S_ 1) (main_v16 : IVec S64x32 1) : IVec S_ 1 :=
  let main_c_5 : IVec S_ 1 := constantI S_ 1 1#1
  let main_v17 : IVec S_ 1 := (fun x v => Host.reduce IntOp.andi x v reducesTo_S64x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x64 .f32) (main_arg3 : FVec F S64 .f32) (main_arg4 : FVec F S64x32 .f32) (main_arg5 : FVec F S32 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x32 .f32 := Host.absf main_arg4
  let main_cst_4 : FVec F S_ .f32 := constant S_ .f32 0x7F800000#32
  let main_v15 : FVec F S64x32 .f32 := broadcastInDim S64x32 ![] bcast_S_S64x32 main_cst_4
  let main_v16 : IVec S64x32 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S100000 : Shape := ⟨1, ![100000]⟩
abbrev S1x100000 : Shape := ⟨2, ![1, 100000]⟩
abbrev S1x1x1x100000 : Shape := ⟨4, ![1, 1, 1, 100000]⟩
abbrev S2x1x1x100000 : Shape := ⟨4, ![2, 1, 1, 100000]⟩
abbrev S2x100000 : Shape := ⟨2, ![2, 100000]⟩
abbrev S2x1700000 : Shape := ⟨2, ![2, 1700000]⟩
abbrev S1x1700000 : Shape := ⟨2, ![1, 1700000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S10000x128 : Shape := ⟨2, ![10000, 128]⟩
abbrev S10000x64 : Shape := ⟨2, ![10000, 64]⟩
abbrev S1700000x64 : Shape := ⟨2, ![1700000, 64]⟩
abbrev S1x64 : Shape := ⟨2, ![1, 64]⟩
abbrev S100000x32 : Shape := ⟨2, ![100000, 32]⟩
abbrev S10000x32 : Shape := ⟨2, ![10000, 32]⟩
abbrev S1700000x32 : Shape := ⟨2, ![1700000, 32]⟩
abbrev S1x32 : Shape := ⟨2, ![1, 32]⟩

abbrev nBuf : Space → Nat
  | .hbm => 93
  | .vmem => 10
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S100000, .i32⟩
  | .hbm, ⟨7, _⟩ => ⟨S1x100000, .i32⟩
  | .hbm, ⟨8, _⟩ => ⟨S1x1x1x100000, .i32⟩
  | .hbm, ⟨9, _⟩ => ⟨S2x1x1x100000, .i32⟩
  | .hbm, ⟨10, _⟩ => ⟨S2x100000, .i32⟩
  | .hbm, ⟨11, _⟩ => ⟨S2x1700000, .i32⟩
  | .hbm, ⟨12, _⟩ => ⟨S1x1700000, .i32⟩
  | .hbm, ⟨13, _⟩ => ⟨S1700000, .i32⟩
  | .hbm, ⟨14, _⟩ => ⟨S1x1700000, .i32⟩
  | .hbm, ⟨15, _⟩ => ⟨S1700000, .i32⟩
  | .hbm, ⟨16, _⟩ => ⟨S_, .f32⟩
  | .hbm, ⟨17, _⟩ => ⟨S1700000, .f32⟩
  | .hbm, ⟨18, _⟩ => ⟨S_, .f32⟩
  | .hbm, ⟨19, _⟩ => ⟨S100000, .f32⟩
  | .hbm, ⟨20, _⟩ => ⟨S1700000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .i1⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S1700000, .i32⟩
  | .hbm, ⟨32, _⟩ => ⟨S1700000, .i1⟩
  | .hbm, ⟨33, _⟩ => ⟨S_, .i32⟩
  | .hbm, ⟨34, _⟩ => ⟨S1700000, .i32⟩
  | .hbm, ⟨35, _⟩ => ⟨S1700000, .i32⟩
  | .hbm, ⟨36, _⟩ => ⟨S1700000, .i32⟩
  | .hbm, ⟨37, _⟩ => ⟨S1700000x1, .i32⟩
  | .hbm, ⟨38, _⟩ => ⟨S1700000, .f32⟩
  | .hbm, ⟨39, _⟩ => ⟨S_, .i32⟩
  | .hbm, ⟨40, _⟩ => ⟨S1700000, .i32⟩
  | .hbm, ⟨41, _⟩ => ⟨S1700000, .i1⟩
  | .hbm, ⟨42, _⟩ => ⟨S_, .i32⟩
  | .hbm, ⟨43, _⟩ => ⟨S1700000, .i32⟩
  | .hbm, ⟨44, _⟩ => ⟨S1700000, .i32⟩
  | .hbm, ⟨45, _⟩ => ⟨S1700000, .i32⟩
  | .hbm, ⟨46, _⟩ => ⟨S1700000x1, .i32⟩
  | .hbm, ⟨47, _⟩ => ⟨S1700000, .f32⟩
  | .hbm, ⟨48, _⟩ => ⟨S1700000, .f32⟩
  | .hbm, ⟨49, _⟩ => ⟨S100000x64, .f32⟩
  | .hbm, ⟨50, _⟩ => ⟨S_, .i32⟩
  | .hbm, ⟨51, _⟩ => ⟨S1700000, .i32⟩
  | .hbm, ⟨52, _⟩ => ⟨S1700000, .i1⟩
  | .hbm, ⟨53, _⟩ => ⟨S_, .i32⟩
  | .hbm, ⟨54, _⟩ => ⟨S1700000, .i32⟩
  | .hbm, ⟨55, _⟩ => ⟨S1700000, .i32⟩
  | .hbm, ⟨56, _⟩ => ⟨S1700000, .i32⟩
  | .hbm, ⟨57, _⟩ => ⟨S1700000x1, .i32⟩
  | .hbm, ⟨58, _⟩ => ⟨S1700000x64, .f32⟩
  | .hbm, ⟨59, _⟩ => ⟨S1700000x1, .f32⟩
  | .hbm, ⟨60, _⟩ => ⟨S1700000x64, .f32⟩
  | .hbm, ⟨61, _⟩ => ⟨S1700000x64, .f32⟩
  | .hbm, ⟨62, _⟩ => ⟨S_, .f32⟩
  | .hbm, ⟨63, _⟩ => ⟨S100000x64, .f32⟩
  | .hbm, ⟨64, _⟩ => ⟨S1700000x1, .i32⟩
  | .hbm, ⟨65, _⟩ => ⟨S100000x64, .f32⟩
  | .hbm, ⟨66, _⟩ => ⟨S1x64, .f32⟩
  | .hbm, ⟨67, _⟩ => ⟨S100000x64, .f32⟩
  | .hbm, ⟨68, _⟩ => ⟨S100000x64, .f32⟩
  | .hbm, ⟨69, _⟩ => ⟨S_, .f32⟩
  | .hbm, ⟨70, _⟩ => ⟨S100000x64, .f32⟩
  | .hbm, ⟨71, _⟩ => ⟨S100000x64, .f32⟩
  | .hbm, ⟨72, _⟩ => ⟨S100000x64, .bf16⟩
  | .hbm, ⟨73, _⟩ => ⟨S100000x32, .f32⟩
  | .hbm, ⟨74, _⟩ => ⟨S_, .i32⟩
  | .hbm, ⟨75, _⟩ => ⟨S1700000, .i32⟩
  | .hbm, ⟨76, _⟩ => ⟨S1700000, .i1⟩
  | .hbm, ⟨77, _⟩ => ⟨S_, .i32⟩
  | .hbm, ⟨78, _⟩ => ⟨S1700000, .i32⟩
  | .hbm, ⟨79, _⟩ => ⟨S1700000, .i32⟩
  | .hbm, ⟨80, _⟩ => ⟨S1700000, .i32⟩
  | .hbm, ⟨81, _⟩ => ⟨S1700000x1, .i32⟩
  | .hbm, ⟨82, _⟩ => ⟨S1700000x32, .f32⟩
  | .hbm, ⟨83, _⟩ => ⟨S1700000x1, .f32⟩
  | .hbm, ⟨84, _⟩ => ⟨S1700000x32, .f32⟩
  | .hbm, ⟨85, _⟩ => ⟨S1700000x32, .f32⟩
  | .hbm, ⟨86, _⟩ => ⟨S_, .f32⟩
  | .hbm, ⟨87, _⟩ => ⟨S100000x32, .f32⟩
  | .hbm, ⟨88, _⟩ => ⟨S1700000x1, .i32⟩
  | .hbm, ⟨89, _⟩ => ⟨S100000x32, .f32⟩
  | .hbm, ⟨90, _⟩ => ⟨S1x32, .f32⟩
  | .hbm, ⟨91, _⟩ => ⟨S100000x32, .f32⟩
  | .hbm, ⟨92, _⟩ => ⟨S100000x32, .f32⟩
  | .local _ .vmem, ⟨0, _⟩ => ⟨S10000x128, .f32⟩
  | .local _ .vmem, ⟨1, _⟩ => ⟨S10000x128, .f32⟩
  | .local _ .vmem, ⟨2, _⟩ => ⟨S128x64, .f32⟩
  | .local _ .vmem, ⟨3, _⟩ => ⟨S10000x64, .f32⟩
  | .local _ .vmem, ⟨4, _⟩ => ⟨S10000x64, .f32⟩
  | .local _ .vmem, ⟨5, _⟩ => ⟨S10000x64, .bf16⟩
  | .local _ .vmem, ⟨6, _⟩ => ⟨S10000x64, .bf16⟩
  | .local _ .vmem, ⟨7, _⟩ => ⟨S64x32, .f32⟩
  | .local _ .vmem, ⟨8, _⟩ => ⟨S10000x32, .f32⟩
  | .local _ .vmem, ⟨9, _⟩ => ⟨S10000x32, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v17 : Ref sig .tc := ⟨.hbm, 29, rfl⟩
abbrev main_c : Ref sig .tc := ⟨.hbm, 30, rfl⟩
abbrev main_v18 : Ref sig .tc := ⟨.hbm, 31, rfl⟩
abbrev main_v19 : Ref sig .tc := ⟨.hbm, 32, rfl⟩
abbrev main_c_3 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_c_4 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_c_6 : Ref sig .tc := ⟨.hbm, 50, rfl⟩
abbrev main_v34 : Ref sig .tc := ⟨.hbm, 51, rfl⟩
abbrev main_v35 : Ref sig .tc := ⟨.hbm, 52, rfl⟩
abbrev main_c_7 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_8 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_call1_cst : Ref sig .tc := ⟨.hbm, 69, rfl⟩
abbrev main_call1_v0 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_c_9 : Ref sig .tc := ⟨.hbm, 74, rfl⟩
abbrev main_v53 : Ref sig .tc := ⟨.hbm, 75, rfl⟩
abbrev main_v54 : Ref sig .tc := ⟨.hbm, 76, rfl⟩
abbrev main_c_10 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_cst_11 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  bcast_S100000_S1x100000_1 : S100000.BroadcastsInDim S1x100000 (![1] : Fin 1 → Fin S1x100000.rank)
  shapeCasts_S1x100000_S1x1x1x100000 : S1x100000.ShapeCasts S1x1x1x100000
  bcast_S1x1x1x100000_S2x1x1x100000_0_1_2_3 : S1x1x1x100000.BroadcastsInDim S2x1x1x100000 (![0, 1, 2, 3] : Fin 4 → Fin S2x1x1x100000.rank)
  shapeCasts_S2x1x1x100000_S2x100000 : S2x1x1x100000.ShapeCasts S2x100000
  concatenates_S2x1600000_S2x100000_S2x1700000_d1 : Shape.Concatenates [S2x1600000, S2x100000] S2x1700000 1
  slices_S2x1700000_S1x1700000_0_0 : S2x1700000.Slices ![0, 0] S1x1700000
  shapeCasts_S1x1700000_S1700000 : S1x1700000.ShapeCasts S1700000
  slices_S2x1700000_S1x1700000_1_0 : S2x1700000.Slices ![1, 0] S1x1700000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  shapeCasts_S10000x64_S10000x64 : S10000x64.ShapeCasts S10000x64
  inb_S64x32_S64x32_0_0 : ∀ a, (![0, 0] : Fin 2 → Nat) a + S64x32.size a ≤ S64x32.size a
  h_S64x32 : 0 < S64x32.numel
  inb_S10000x32_S10000x32_0_0 : ∀ a, (![0, 0] : Fin 2 → Nat) a + S10000x32.size a ≤ S10000x32.size a
  h_S10000x32 : 0 < S10000x32.numel
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x128_S128x64_S10000x64_1_0_0_1_n_n_wf : DotDims.WF S10000x128 S128x64 S10000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S10000x64_S64x32_S10000x32_1_0_0_1_n_n_wf : DotDims.WF S10000x64 S64x32 S10000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .bf16 = 32 ∨ (Rect.block (s := S100000x64) S10000x64.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x32.size a ≤ S64x32.size a
  hwx1_1 : ∀ i : grid1.Coords, EltTy.bits .f32 = 32 ∨ (Rect.block (s := S64x32) S64x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x32.size a ≤ S100000x32.size a
  hwx1_2 : ∀ i : grid1.Coords, EltTy.bits .f32 = 32 ∨ (Rect.block (s := S100000x32) S10000x32.size (cc1_transform_2 i) (hinb1_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S10000x64_S64x32_S10000x32_1_0_0_1_n_n : DotDims S10000x64 S64x32 S10000x32 where
  lhsContracting := [1]
  rhsContracting := [0]
  lhsNonContracting := [0]
  rhsNonContracting := [1]
  lhsBatch := []
  rhsBatch := []
  wf := dot_S10000x64_S64x32_S10000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v33) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v51) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S64x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v52) S10000x32.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S100000 : Shape := ⟨1, ![100000]⟩
abbrev S1x100000 : Shape := ⟨2, ![1, 100000]⟩
abbrev S1x1x1x100000 : Shape := ⟨4, ![1, 1, 1, 100000]⟩
abbrev S2x1x1x100000 : Shape := ⟨4, ![2, 1, 1, 100000]⟩
abbrev S2x100000 : Shape := ⟨2, ![2, 100000]⟩
abbrev S2x1700000 : Shape := ⟨2, ![2, 1700000]⟩
abbrev S1x1700000 : Shape := ⟨2, ![1, 1700000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S1700000x64 : Shape := ⟨2, ![1700000, 64]⟩
abbrev S1x64 : Shape := ⟨2, ![1, 64]⟩
abbrev S100000x32 : Shape := ⟨2, ![100000, 32]⟩
abbrev S1700000x32 : Shape := ⟨2, ![1700000, 32]⟩
abbrev S1x32 : Shape := ⟨2, ![1, 32]⟩

abbrev nBuf : Space → Nat
  | .hbm => 92
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S100000, .i32⟩
  | .hbm, ⟨7, _⟩ => ⟨S1x100000, .i32⟩
  | .hbm, ⟨8, _⟩ => ⟨S1x1x1x100000, .i32⟩
  | .hbm, ⟨9, _⟩ => ⟨S2x1x1x100000, .i32⟩
  | .hbm, ⟨10, _⟩ => ⟨S2x100000, .i32⟩
  | .hbm, ⟨11, _⟩ => ⟨S2x1700000, .i32⟩
  | .hbm, ⟨12, _⟩ => ⟨S1x1700000, .i32⟩
  | .hbm, ⟨13, _⟩ => ⟨S1700000, .i32⟩
  | .hbm, ⟨14, _⟩ => ⟨S1x1700000, .i32⟩
  | .hbm, ⟨15, _⟩ => ⟨S1700000, .i32⟩
  | .hbm, ⟨16, _⟩ => ⟨S_, .f32⟩
  | .hbm, ⟨17, _⟩ => ⟨S1700000, .f32⟩
  | .hbm, ⟨18, _⟩ => ⟨S_, .f32⟩
  | .hbm, ⟨19, _⟩ => ⟨S100000, .f32⟩
  | .hbm, ⟨20, _⟩ => ⟨S1700000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .i1⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S1700000, .i32⟩
  | .hbm, ⟨32, _⟩ => ⟨S1700000, .i1⟩
  | .hbm, ⟨33, _⟩ => ⟨S_, .i32⟩
  | .hbm, ⟨34, _⟩ => ⟨S1700000, .i32⟩
  | .hbm, ⟨35, _⟩ => ⟨S1700000, .i32⟩
  | .hbm, ⟨36, _⟩ => ⟨S1700000, .i32⟩
  | .hbm, ⟨37, _⟩ => ⟨S1700000x1, .i32⟩
  | .hbm, ⟨38, _⟩ => ⟨S1700000, .f32⟩
  | .hbm, ⟨39, _⟩ => ⟨S_, .i32⟩
  | .hbm, ⟨40, _⟩ => ⟨S1700000, .i32⟩
  | .hbm, ⟨41, _⟩ => ⟨S1700000, .i1⟩
  | .hbm, ⟨42, _⟩ => ⟨S_, .i32⟩
  | .hbm, ⟨43, _⟩ => ⟨S1700000, .i32⟩
  | .hbm, ⟨44, _⟩ => ⟨S1700000, .i32⟩
  | .hbm, ⟨45, _⟩ => ⟨S1700000, .i32⟩
  | .hbm, ⟨46, _⟩ => ⟨S1700000x1, .i32⟩
  | .hbm, ⟨47, _⟩ => ⟨S1700000, .f32⟩
  | .hbm, ⟨48, _⟩ => ⟨S1700000, .f32⟩
  | .hbm, ⟨49, _⟩ => ⟨S100000x64, .f32⟩
  | .hbm, ⟨50, _⟩ => ⟨S_, .i32⟩
  | .hbm, ⟨51, _⟩ => ⟨S1700000, .i32⟩
  | .hbm, ⟨52, _⟩ => ⟨S1700000, .i1⟩
  | .hbm, ⟨53, _⟩ => ⟨S_, .i32⟩
  | .hbm, ⟨54, _⟩ => ⟨S1700000, .i32⟩
  | .hbm, ⟨55, _⟩ => ⟨S1700000, .i32⟩
  | .hbm, ⟨56, _⟩ => ⟨S1700000, .i32⟩
  | .hbm, ⟨57, _⟩ => ⟨S1700000x1, .i32⟩
  | .hbm, ⟨58, _⟩ => ⟨S1700000x64, .f32⟩
  | .hbm, ⟨59, _⟩ => ⟨S1700000x1, .f32⟩
  | .hbm, ⟨60, _⟩ => ⟨S1700000x64, .f32⟩
  | .hbm, ⟨61, _⟩ => ⟨S1700000x64, .f32⟩
  | .hbm, ⟨62, _⟩ => ⟨S_, .f32⟩
  | .hbm, ⟨63, _⟩ => ⟨S100000x64, .f32⟩
  | .hbm, ⟨64, _⟩ => ⟨S1700000x1, .i32⟩
  | .hbm, ⟨65, _⟩ => ⟨S100000x64, .f32⟩
  | .hbm, ⟨66, _⟩ => ⟨S1x64, .f32⟩
  | .hbm, ⟨67, _⟩ => ⟨S100000x64, .f32⟩
  | .hbm, ⟨68, _⟩ => ⟨S100000x64, .f32⟩
  | .hbm, ⟨69, _⟩ => ⟨S_, .f32⟩
  | .hbm, ⟨70, _⟩ => ⟨S100000x64, .f32⟩
  | .hbm, ⟨71, _⟩ => ⟨S100000x64, .f32⟩
  | .hbm, ⟨72, _⟩ => ⟨S100000x32, .f32⟩
  | .hbm, ⟨73, _⟩ => ⟨S_, .i32⟩
  | .hbm, ⟨74, _⟩ => ⟨S1700000, .i32⟩
  | .hbm, ⟨75, _⟩ => ⟨S1700000, .i1⟩
  | .hbm, ⟨76, _⟩ => ⟨S_, .i32⟩
  | .hbm, ⟨77, _⟩ => ⟨S1700000, .i32⟩
  | .hbm, ⟨78, _⟩ => ⟨S1700000, .i32⟩
  | .hbm, ⟨79, _⟩ => ⟨S1700000, .i32⟩
  | .hbm, ⟨80, _⟩ => ⟨S1700000x1, .i32⟩
  | .hbm, ⟨81, _⟩ => ⟨S1700000x32, .f32⟩
  | .hbm, ⟨82, _⟩ => ⟨S1700000x1, .f32⟩
  | .hbm, ⟨83, _⟩ => ⟨S1700000x32, .f32⟩
  | .hbm, ⟨84, _⟩ => ⟨S1700000x32, .f32⟩
  | .hbm, ⟨85, _⟩ => ⟨S_, .f32⟩
  | .hbm, ⟨86, _⟩ => ⟨S100000x32, .f32⟩
  | .hbm, ⟨87, _⟩ => ⟨S1700000x1, .i32⟩
  | .hbm, ⟨88, _⟩ => ⟨S100000x32, .f32⟩
  | .hbm, ⟨89, _⟩ => ⟨S1x32, .f32⟩
  | .hbm, ⟨90, _⟩ => ⟨S100000x32, .f32⟩
  | .hbm, ⟨91, _⟩ => ⟨S100000x32, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v17 : Ref sig .tc := ⟨.hbm, 29, rfl⟩
abbrev main_c : Ref sig .tc := ⟨.hbm, 30, rfl⟩
abbrev main_v18 : Ref sig .tc := ⟨.hbm, 31, rfl⟩
abbrev main_v19 : Ref sig .tc := ⟨.hbm, 32, rfl⟩
abbrev main_c_3 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_c_4 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_c_6 : Ref sig .tc := ⟨.hbm, 50, rfl⟩
abbrev main_v34 : Ref sig .tc := ⟨.hbm, 51, rfl⟩
abbrev main_v35 : Ref sig .tc := ⟨.hbm, 52, rfl⟩
abbrev main_c_7 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_8 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_call1_cst : Ref sig .tc := ⟨.hbm, 69, rfl⟩
abbrev main_call1_v0 : Ref sig .tc := ⟨.hbm, 70, rfl⟩
abbrev main_v50 : Ref sig .tc := ⟨.hbm, 71, rfl⟩
abbrev main_v51 : Ref sig .tc := ⟨.hbm, 72, rfl⟩
abbrev main_c_9 : Ref sig .tc := ⟨.hbm, 73, rfl⟩
abbrev main_v52 : Ref sig .tc := ⟨.hbm, 74, rfl⟩
abbrev main_v53 : Ref sig .tc := ⟨.hbm, 75, rfl⟩
abbrev main_c_10 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_cst_11 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩

abbrev nD : Nat := 1
abbrev τ : Topo := Topo.v7x

variable {F : FTy → Type} [FloatOps F]

class Facts₀ : Prop where
  bcast_S100000_S1x100000_1 : S100000.BroadcastsInDim S1x100000 (![1] : Fin 1 → Fin S1x100000.rank)
  shapeCasts_S1x100000_S1x1x1x100000 : S1x100000.ShapeCasts S1x1x1x100000
  bcast_S1x1x1x100000_S2x1x1x100000_0_1_2_3 : S1x1x1x100000.BroadcastsInDim S2x1x1x100000 (![0, 1, 2, 3] : Fin 4 → Fin S2x1x1x100000.rank)
  shapeCasts_S2x1x1x100000_S2x100000 : S2x1x1x100000.ShapeCasts S2x100000
  concatenates_S2x1600000_S2x100000_S2x1700000_d1 : Shape.Concatenates [S2x1600000, S2x100000] S2x1700000 1
  slices_S2x1700000_S1x1700000_0_0 : S2x1700000.Slices ![0, 0] S1x1700000
  shapeCasts_S1x1700000_S1700000 : S1x1700000.ShapeCasts S1700000
  slices_S2x1700000_S1x1700000_1_0 : S2x1700000.Slices ![1, 0] S1x1700000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x32_S100000x32_1_0_0_1_n_n_wf : DotDims.WF S100000x64 S64x32 S100000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf

class Facts : Prop extends Facts₀ where

variable [Facts]
-- ==== Proof.RefArgs.lean ====
/-
  The reference's line of host operations writes none of its six argument buffers: each of them
  ends holding what it held at launch.
-/
import proofs.«181033_j75969381531758_2_alg».proof.Proof.RefRun

noncomputable section

namespace Cert.ReferenceIdeal.Args

open Cert.ReferenceIdeal Cert.ReferenceIdeal.Gen Cert.ReferenceIdeal.ValueP Idealize.ShloMosaic Idealize.ShloMosaic.TcCoe Idealize.SL.Sem Idealize.ShloMosaic.StableHlo

variable {F : FTy → Type} [FloatOps F]
variable (m : (ℓ : Loc nD τ sig) → Buf (Elt F) ℓ) (c : Dev nD)

theorem kept_main_arg0 : after (ops (F := F)) (launchContents m c) (Proc.devRef .tc main_arg0) = m ((c.tc : Thread nD τ).loc main_arg0) := by
  after_results_simp <;> rfl
theorem kept_main_arg1 : after (ops (F := F)) (launchContents m c) (Proc.devRef .tc main_arg1) = m ((c.tc : Thread nD τ).loc main_arg1) := by
  after_results_simp <;> rfl
theorem kept_main_arg2 : after (ops (F := F)) (launchContents m c) (Proc.devRef .tc main_arg2) = m ((c.tc : Thread nD τ).loc main_arg2) := by
  after_results_simp <;> rfl
theorem kept_main_arg3 : after (ops (F := F)) (launchContents m c) (Proc.devRef .tc main_arg3) = m ((c.tc : Thread nD τ).loc main_arg3) := by
  after_results_simp <;> rfl
theorem kept_main_arg4 : after (ops (F := F)) (launchContents m c) (Proc.devRef .tc main_arg4) = m ((c.tc : Thread nD τ).loc main_arg4) := by
  after_results_simp <;> rfl
theorem kept_main_arg5 : after (ops (F := F)) (launchContents m c) (Proc.devRef .tc main_arg5) = m ((c.tc : Thread nD τ).loc main_arg5) := by
  after_results_simp <;> rfl

end Cert.ReferenceIdeal.Args

end
-- ==== Proof.KernelRun.lean ====
/-
  The idealized kernel program's run with its RESULT named.  The program is nine segments: three
  stretches of host operations, the first product's region, three more stretches, the second
  product's region, and the last stretch.  Every weakly fair execution terminates, and the memory
  it ends in holds, at every buffer the program does not scope, the contents the segments' fold
  leaves there: a host stretch folds its operations' results, a region replaces its windows'
  arrays by what its write-backs leave and keeps every other buffer.  Read at the result buffer
  this names the result; read at an argument it gives the argument back unchanged.
-/
import proofs.«181033_j75969381531758_2_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting; the result buffer ends at what the
    last stretch's fold leaves there, and the six arguments end as launched. -/
theorem run : θ_run defs (onTc (τ := τ) (main (F := F))) ⟨m, fun _ => 0, ρ⟩ (fun r => ∀ c : Dev nD,
      r.2.mem ((c.tc : Thread nD τ).loc main_v68) = W9 m ρ c (Proc.devRef .tc main_v68)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c =>
      ⟨h c _ (mem_uc main_v68 (by decide)),
       (h c _ (mem_uc main_arg0 (by decide))).trans (W9_main_arg0 m ρ c),
       (h c _ (mem_uc main_arg1 (by decide))).trans (W9_main_arg1 m ρ c),
       (h c _ (mem_uc main_arg2 (by decide))).trans (W9_main_arg2 m ρ c),
       (h c _ (mem_uc main_arg3 (by decide))).trans (W9_main_arg3 m ρ c),
       (h c _ (mem_uc main_arg4 (by decide))).trans (W9_main_arg4 m ρ c),
       (h c _ (mem_uc main_arg5 (by decide))).trans (W9_main_arg5 m ρ c)⟩)

end Cert.KernelIdeal.Whole

end
-- ==== Proof.LibDotRows.lean ====
/-
  A plain matrix product read at an index.  For shapes [R, K] · [K, J] → [R, J] whose dimension
  numbers contract the left operand's axis 1 with the right operand's axis 0 (no batch axis), the
  sum over the contraction index that `tpu.matmul` and `dot_general` denote at the ideal values is
  the textbook sum over `k : Fin K` of `lhs (r, k) * rhs (k, c)`.  The four coordinate facts about
  the dimension numbers' operand indices are hypotheses: for a record with literal lists each of
  them holds by `rfl`.
-/
import Idealize.ShloMosaic.PureOps.Ideal.Laws
import Idealize.ShloMosaic.Lib.ValueIdx

noncomputable section

open scoped BigOperators

namespace Idealize.ShloMosaic.ValueIdx

open Idealize.ShloMosaic

/-- The contraction sum of a plain [R, K] · [K, J] product at output index `j` is the sum over
    `k : Fin K` of the left operand at `(j 0, k)` times the right operand at `(k, j 1)`. -/
theorem dot_rows_sum {M : Type*} [AddCommMonoid M] {R K J : Nat}
    (d : DotDims ⟨2, ![R, K]⟩ ⟨2, ![K, J]⟩ ⟨2, ![R, J]⟩)
    (hr : d.contr.rank = 1) (hs : d.contr.size ⟨0, by omega⟩ = K)
    (h1 : ∀ j k, (d.lhsIdx j k 0).val = (j 0).val)
    (h2 : ∀ j k, (d.lhsIdx j k 1).val = (k ⟨0, by omega⟩).val)
    (h3 : ∀ j k, (d.rhsIdx j k 0).val = (k ⟨0, by omega⟩).val)
    (h4 : ∀ j k, (d.rhsIdx j k 1).val = (j 1).val)
    (g : (⟨2, ![R, K]⟩ : Shape).Idx → (⟨2, ![K, J]⟩ : Shape).Idx → M) (j : (⟨2, ![R, J]⟩ : Shape).Idx) :
    ∑ k : d.contr.Idx, g (d.lhsIdx j k) (d.rhsIdx j k) = ∑ k : Fin K, g (ix2 (j 0) k) (ix2 k (j 1)) := by
  rw [← Equiv.sum_comp (contrEquiv1 d K hr hs).symm]
  refine Finset.sum_congr rfl fun k _ => ?_
  have e1 : d.lhsIdx j ((contrEquiv1 d K hr hs).symm k) = ix2 (j 0) k := by
    funext a
    match a with
    | ⟨0, _⟩ => exact Fin.ext (h1 j _)
    | ⟨1, _⟩ => exact Fin.ext ((h2 j _).trans (contrEquiv1_symm_val d K hr hs k))
  have e2 : d.rhsIdx j ((contrEquiv1 d K hr hs).symm k) = ix2 k (j 1) := by
    funext a
    match a with
    | ⟨0, _⟩ => exact Fin.ext ((h3 j _).trans (contrEquiv1_symm_val d K hr hs k))
    | ⟨1, _⟩ => exact Fin.ext (h4 j _)
  exact congrArg₂ g e1 e2

/-- A `tpu.matmul` into the zero accumulator, at the ideal values, read at `(r, c)`. -/
theorem matmul_zero_rows {R K J : Nat} {φ₁ φ₂ : FTy}
    (d : DotDims ⟨2, ![R, K]⟩ ⟨2, ![K, J]⟩ ⟨2, ![R, J]⟩) (prec : Option ContractPrecision)
    (hr : d.contr.rank = 1) (hs : d.contr.size ⟨0, by omega⟩ = K)
    (h1 : ∀ j k, (d.lhsIdx j k 0).val = (j 0).val)
    (h2 : ∀ j k, (d.lhsIdx j k 1).val = (k ⟨0, by omega⟩).val)
    (h3 : ∀ j k, (d.rhsIdx j k 0).val = (k ⟨0, by omega⟩).val)
    (h4 : ∀ j k, (d.rhsIdx j k 1).val = (j 1).val)
    (lhs : FVec Ideal ⟨2, ![R, K]⟩ φ₁) (rhs : FVec Ideal ⟨2, ![K, J]⟩ φ₂) (r : Fin R) (c : Fin J) :
    FloatOps.matmul d prec lhs rhs (constant ⟨2, ![R, J]⟩ .f32 0x00000000#32) (ix2 r c)
      = ∑ k : Fin K, lhs (ix2 r k) * rhs (ix2 k c) := by
  rw [Ideal.matmul_constant_zero_apply]
  exact dot_rows_sum d hr hs h1 h2 h3 h4 (fun a b => lhs a * rhs b) (ix2 r c)

/-- The host's `dot_general`, at the ideal values, read at `(r, c)`. -/
theorem dotGeneral_rows {R K J : Nat} {φ₁ φ₂ : FTy}
    (d : DotDims ⟨2, ![R, K]⟩ ⟨2, ![K, J]⟩ ⟨2, ![R, J]⟩) (prec : Option ContractPrecision) (sched : HostSchedule)
    (hr : d.contr.rank = 1) (hs : d.contr.size ⟨0, by omega⟩ = K)
    (h1 : ∀ j k, (d.lhsIdx j k 0).val = (j 0).val)
    (h2 : ∀ j k, (d.lhsIdx j k 1).val = (k ⟨0, by omega⟩).val)
    (h3 : ∀ j k, (d.rhsIdx j k 0).val = (k ⟨0, by omega⟩).val)
    (h4 : ∀ j k, (d.rhsIdx j k 1).val = (j 1).val)
    (lhs : FVec Ideal ⟨2, ![R, K]⟩ φ₁) (rhs : FVec Ideal ⟨2, ![K, J]⟩ φ₂) (r : Fin R) (c : Fin J) :
    FloatOps.dotGeneral d prec sched lhs rhs (ix2 r c) = ∑ k : Fin K, lhs (ix2 r k) * rhs (ix2 k c) := by
  rw [Ideal.dotGeneral_apply]
  exact dot_rows_sum d hr hs h1 h2 h3 h4 (fun a b => lhs a * rhs b) (ix2 r c)

end Idealize.ShloMosaic.ValueIdx

end
-- ==== Proof.Dense.lean ====
/-
  The dense product of two matrices over the extended reals, entry by entry: for x of shape [R, K]
  and w of shape [K, J], entry (r, c) of the product is the sum over k of x(r, k) · w(k, c).  Both
  a graph-convolution layer's kernel (a matrix product into a zero accumulator, block of rows by
  block of rows) and its reference (one whole product) compute this function of the two operands;
  extended-real addition is commutative and associative, so the order of the sum does not matter
  and no finiteness is needed.
-/
import Idealize.ShloMosaic.PureOps.Ideal.Laws
import Idealize.ShloMosaic.Lib.ValueIdx
import proofs.«181033_j75969381531758_2_alg».proof.Proof.LibDotRows

noncomputable section

open scoped BigOperators

namespace Cert.Gcn

open Idealize.ShloMosaic Idealize.ShloMosaic.ValueIdx

/-- Entry (r, c) of the product of an [R, K] matrix with a [K, J] matrix: the sum over k of
    x(r, k) · w(k, c), on the extended reals. -/
def dense {R K J : Nat} (x : (⟨2, ![R, K]⟩ : Shape).Idx → EReal) (w : (⟨2, ![K, J]⟩ : Shape).Idx → EReal) :
    (⟨2, ![R, J]⟩ : Shape).Idx → EReal :=
  fun i => ∑ k : Fin K, x (ix2 (i 0) k) * w (ix2 k (i 1))

theorem dense_apply {R K J : Nat} (x : (⟨2, ![R, K]⟩ : Shape).Idx → EReal) (w : (⟨2, ![K, J]⟩ : Shape).Idx → EReal)
    (r : Fin R) (c : Fin J) : dense x w (ix2 r c) = ∑ k : Fin K, x (ix2 r k) * w (ix2 k c) := rfl

/-- A matrix product accumulated into zero is the dense product (for dimension numbers that
    contract the left operand's columns with the right operand's rows). -/
theorem matmul_zero_eq_dense {R K J : Nat} {φ₁ φ₂ : FTy}
    (d : DotDims ⟨2, ![R, K]⟩ ⟨2, ![K, J]⟩ ⟨2, ![R, J]⟩) (prec : Option ContractPrecision)
    (hr : d.contr.rank = 1) (hs : d.contr.size ⟨0, by omega⟩ = K)
    (h1 : ∀ j k, (d.lhsIdx j k 0).val = (j 0).val)
    (h2 : ∀ j k, (d.lhsIdx j k 1).val = (k ⟨0, by omega⟩).val)
    (h3 : ∀ j k, (d.rhsIdx j k 0).val = (k ⟨0, by omega⟩).val)
    (h4 : ∀ j k, (d.rhsIdx j k 1).val = (j 1).val)
    (lhs : FVec Ideal ⟨2, ![R, K]⟩ φ₁) (rhs : FVec Ideal ⟨2, ![K, J]⟩ φ₂) :
    FloatOps.matmul d prec lhs rhs (constant ⟨2, ![R, J]⟩ .f32 0x00000000#32) = dense lhs rhs := by
  funext j
  rw [eq_ix2 j]
  exact matmul_zero_rows d prec hr hs h1 h2 h3 h4 lhs rhs (j 0) (j 1)

/-- The host's whole product is the dense product. -/
theorem dotGeneral_eq_dense {R K J : Nat} {φ₁ φ₂ : FTy}
    (d : DotDims ⟨2, ![R, K]⟩ ⟨2, ![K, J]⟩ ⟨2, ![R, J]⟩) (prec : Option ContractPrecision) (sched : HostSchedule)
    (hr : d.contr.rank = 1) (hs : d.contr.size ⟨0, by omega⟩ = K)
    (h1 : ∀ j k, (d.lhsIdx j k 0).val = (j 0).val)
    (h2 : ∀ j k, (d.lhsIdx j k 1).val = (k ⟨0, by omega⟩).val)
    (h3 : ∀ j k, (d.rhsIdx j k 0).val = (k ⟨0, by omega⟩).val)
    (h4 : ∀ j k, (d.rhsIdx j k 1).val = (j 1).val)
    (lhs : FVec Ideal ⟨2, ![R, K]⟩ φ₁) (rhs : FVec Ideal ⟨2, ![K, J]⟩ φ₂) :
    FloatOps.dotGeneral d prec sched lhs rhs = dense lhs rhs := by
  funext j
  rw [eq_ix2 j]
  exact dotGeneral_rows d prec sched hr hs h1 h2 h3 h4 lhs rhs (j 0) (j 1)

/-- Rows [o, o + R') of the dense product of x with w are the dense product of those rows of x
    with w: a block of rows of the product depends on that block of rows of the left operand only. -/
theorem dense_rows {R R' K J : Nat} (x : (⟨2, ![R, K]⟩ : Shape).Idx → EReal) (w : (⟨2, ![K, J]⟩ : Shape).Idx → EReal)
    (x' : (⟨2, ![R', K]⟩ : Shape).Idx → EReal) (r : Fin R) (r' : Fin R') (c : Fin J)
    (hx : ∀ k : Fin K, x' (ix2 r' k) = x (ix2 r k)) :
    dense x' w (ix2 r' c) = dense x w (ix2 r c) := by
  rw [dense_apply, dense_apply]
  exact Finset.sum_congr rfl fun k _ => by rw [hx k]

end Cert.Gcn

end
-- ==== Proof.Region0.lean ====
/-
  The first layer's kernel region, as one array.  The region walks ten grid points; at point t it
  multiplies rows 10000·t … 10000·t + 9999 of the left operand (all 128 columns) by the whole
  [128, 64] right operand, starting from a zero accumulator, and writes the [10000, 64] result to
  the same rows of the output.  Entry (r, c) of a matrix product is a sum over k of x(r, k)·w(k, c):
  it reads row r of the left operand and nothing else of it.  So the product of a block of rows with
  w is that block of rows of the whole product, the ten blocks tile the 100000 rows, and the output
  array ends holding the dense product of the two arrays as the region found them.
-/
import proofs.«181033_j75969381531758_2_alg».proof.Proof.Gen.KernelIdeal.Frame
import proofs.«181033_j75969381531758_2_alg».proof.Proof.Dense
import Idealize.ShloMosaic.Lib.Pipeline.Value
import Idealize.ShloMosaic.Lib.ValueIdx

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)
open Cert.Gcn

variable (V : (c : Dev nD) → (b : Ref sig .tc) → Buf (Elt Ideal) ((c : Thread nD τ).loc b))

/-- The offsets (0, 0), as the constant function. -/
theorem zeros2 : (![0, 0] : Fin 2 → Nat) = fun _ => 0 := funext fun a => by fin_cases a <;> rfl

/-- The block indices at grid point t, decided over the ten points: the left operand and the output
    are both at row block t, column block 0; the right operand stays at block (0, 0). -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The body's arithmetic on its two loaded blocks is their dense product: narrowing to bf16 changes
    nothing over the extended reals, and the accumulator starts at zero. -/
theorem pay0_eq (x0 : Vec Ideal S10000x128 .f32) (x1 : Vec Ideal S128x64 .f32) :
    k0_pay1 x0 x1 = dense (R := 10000) (K := 128) (J := 64) x0 x1 := by
  unfold k0_pay1
  dsimp only
  refine (matmul_zero_eq_dense dot_S10000x128_S128x64_S10000x64_1_0_0_1_n_n none rfl rfl (fun _ _ => rfl) (fun _ _ => rfl)
    (fun _ _ => rfl) (fun _ _ => rfl) (truncf .bf16 x0 bitsLt_bf16_f32) (truncf .bf16 x1 bitsLt_bf16_f32)).trans ?_
  rfl

/-- What the body leaves in the output's buffer: it loads both buffers whole and stores once, whole,
    so the buffer ends holding the dense product of the two blocks. -/
theorem out0_eq (x0 : Vec Ideal S10000x128 .f32) (x1 : Vec Ideal S128x64 .f32) :
    Gen.out0_2 x0 x1 = dense (R := 10000) (K := 128) (J := 64) x0 x1 := by
  unfold Gen.out0_2
  rw [View.canon_unit_zero zeros2]
  simp only [View.ld_unit_zero (S := S10000x128) zeros2, View.ld_unit_zero (S := S128x64) zeros2]
  exact pay0_eq x0 x1

/-- The right operand's window is its whole array at every point: block index (0, 0), so the block read back is
    the array itself. -/
theorem iblk0_1_eq (c : Dev nD) (t : Fin cfg0.N) : (Gen.iblk0 V c 1 t : Vec Ideal S128x64 .f32) = V c main_arg2 := by
  obtain ⟨-, -, e2, e3, -, -⟩ := idx0 t
  funext y
  unfold Gen.iblk0
  rw [View.read_apply]
  show V c main_arg2 _ = V c main_arg2 y
  congr 1
  funext a
  apply Fin.ext
  match a with
  | ⟨0, _⟩ => show win0_1.index t 0 * 128 + 1 * (y 0).val = (y 0).val; rw [e2]; omega
  | ⟨1, _⟩ => show win0_1.index t 1 * 64 + 1 * (y 1).val = (y 1).val; rw [e3]; omega

/-- The left operand's block at point t holds rows 10000·t … 10000·t + 9999 of the array, all 128 columns. -/
theorem iblk0_0_apply (c : Dev nD) (t : Fin cfg0.N) (p : Fin 10000) (k : Fin 128) (r : Fin 100000) (hr : r.val = 10000 * t.val + p.val) :
    (Gen.iblk0 V c 0 t : Vec Ideal S10000x128 .f32) (ix2 p k) = (V c main_arg0 : S100000x128.Idx → EReal) (ix2 r k) := by
  obtain ⟨e0, e1, -, -, -, -⟩ := idx0 t
  unfold Gen.iblk0
  rw [View.read_apply]
  show V c main_arg0 _ = V c main_arg0 _
  congr 1
  funext a
  apply Fin.ext
  match a with
  | ⟨0, _⟩ => show win0_0.index t 0 * 10000 + 1 * p.val = r.val; rw [e0, hr]; omega
  | ⟨1, _⟩ => show win0_0.index t 1 * 128 + 1 * k.val = k.val; rw [e1]; omega

/-- What point t writes back is block t of the dense product of the two arrays as the region finds them: the
    body's product of its row block with the whole right operand is rows 10000·t … 10000·t + 9999 of the
    whole product, because a row of a product depends on that row of the left operand only. -/
theorem flushed0_eq (c : Dev nD) (t : Fin cfg0.N) :
    (Gen.dat0 V c).flushed 2 t = ((cfg0.win 2).blk t).view.read (Elt Ideal) (dense (R := 100000) (K := 128) (J := 64) (V c main_arg0) (V c main_arg2)) := by
  show (cfg0.win 2).cut (grid0.coords t) ((Gen.dat0 V c).after 2 t) = _
  rw [Gen.after0_2]
  have ht : t.val < 10 := Nat.lt_of_lt_of_eq t.isLt (Gen.N_0 : cfg0.N = 10)
  obtain ⟨-, -, -, -, e4, e5⟩ := idx0 t
  funext j
  obtain ⟨p, q, rfl⟩ : ∃ (p : Fin 10000) (q : Fin 64), j = ix2 p q := ⟨j 0, j 1, eq_ix2 (n0 := 10000) (n1 := 64) j⟩
  show Gen.out0_2 (Gen.iblk0 V c 0 t) (Gen.iblk0 V c 1 t) (ix2 p q)
    = dense (R := 100000) (K := 128) (J := 64) (V c main_arg0) (V c main_arg2) (((cfg0.win 2).blk t).view.emb (ix2 p q))
  have hemb : ((cfg0.win 2).blk t).view.emb (ix2 p q) = (ix2 (⟨10000 * t.val + p.val, by omega⟩ : Fin 100000) q : S100000x64.Idx) := by
    funext a; apply Fin.ext
    match a with
    | ⟨0, _⟩ => show win0_2.index t 0 * 10000 + 1 * p.val = 10000 * t.val + p.val; rw [e4]; omega
    | ⟨1, _⟩ => show win0_2.index t 1 * 64 + 1 * q.val = q.val; rw [e5]; omega
  rw [hemb]
  refine (congrFun (out0_eq (Gen.iblk0 V c 0 t) (Gen.iblk0 V c 1 t)) (ix2 p q)).trans ?_
  rw [iblk0_1_eq V c t]
  exact dense_rows (V c main_arg0) (V c main_arg2) (Gen.iblk0 V c 0 t) ⟨10000 * t.val + p.val, by omega⟩ p q
    (fun k => iblk0_0_apply V c t p k _ rfl)

/-- An index of the output array is in point t's block iff each coordinate lies in the block's range on
    its axis: block index times block size, for block size many places. -/
theorem mem_blk0 (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v33).slice (win0_2.rect t)).set ↔ _
  rw [View.set_slice_whole, Rect.mem_set_unit]
  exact Iff.rfl

/-- The ten blocks tile the output: row r lies in the block of point r / 10000, and every point writes
    its block back. -/
theorem cover0 (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 10 := Gen.N_0
  have hlt : (i 0).val / 10000 < cfg0.N := Nat.lt_of_lt_of_eq (by omega) hN.symm
  obtain ⟨-, -, -, -, e4, e5⟩ := idx0 ⟨(i 0).val / 10000, hlt⟩
  refine ⟨⟨(i 0).val / 10000, hlt⟩, flush0_2 _, ?_⟩
  rw [mem_blk0]
  intro a
  match a with
  | ⟨0, _⟩ =>
    show win0_2.index ⟨(i 0).val / 10000, hlt⟩ 0 * 10000 ≤ (i 0).val ∧ (i 0).val < win0_2.index ⟨(i 0).val / 10000, hlt⟩ 0 * 10000 + 10000
    rw [e4]; show (i 0).val / 10000 * 10000 ≤ (i 0).val ∧ (i 0).val < (i 0).val / 10000 * 10000 + 10000; omega
  | ⟨1, _⟩ =>
    show win0_2.index ⟨(i 0).val / 10000, hlt⟩ 1 * 64 ≤ (i 1).val ∧ (i 1).val < win0_2.index ⟨(i 0).val / 10000, hlt⟩ 1 * 64 + 64
    rw [e5]; omega

/-- The output array after the region's ten points: the dense product of the left operand's array with
    the right operand's array, as the region found them. -/
theorem region0_array (V : (c : Dev nD) → (b : Ref sig .tc) → Buf (Elt Ideal) ((c : Thread nD τ).loc b)) (c : Dev nD) :
    (Gen.dat0 (F := Ideal) V c).arrAt 2 cfg0.N = Cert.Gcn.dense (R := 100000) (K := 128) (J := 64) (V c main_arg0) (V c main_arg2) :=
  (Gen.dat0 V c).arrAt_eq_of_cover 2 (dense (R := 100000) (K := 128) (J := 64) (V c main_arg0) (V c main_arg2))
    (fun t _ => flushed0_eq V c t) cover0

end Cert.KernelIdeal.RegionValue

end
-- ==== Proof.Region1.lean ====
/-
  The second layer's kernel region, as one array.  Ten grid points again; at point t the body takes
  rows 10000·t … 10000·t + 9999 of the [100000, 64] left operand (already in bf16; the body recasts
  the block to its own shape, which changes nothing), multiplies them by the whole [64, 32] right
  operand from a zero accumulator, and writes the [10000, 32] result to the same rows of the output.
  A row of a matrix product reads that row of the left operand only, so each block written is the
  matching block of rows of the whole product; the ten blocks tile the 100000 rows, and the output
  array ends holding the dense product of the two arrays as the region found them.
-/
import proofs.«181033_j75969381531758_2_alg».proof.Proof.Gen.KernelIdeal.Frame
import proofs.«181033_j75969381531758_2_alg».proof.Proof.Dense
import Idealize.ShloMosaic.Lib.Pipeline.Value
import Idealize.ShloMosaic.Lib.ValueIdx

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.ValueIdx
open Idealize.ShloMosaic.Pipeline (Dat)
open Cert.Gcn

variable (V : (c : Dev nD) → (b : Ref sig .tc) → Buf (Elt Ideal) ((c : Thread nD τ).loc b))

/-- The offsets (0, 0), as the constant function. -/
theorem zero_offsets1 : (![0, 0] : Fin 2 → Nat) = fun _ => 0 := funext fun a => by fin_cases a <;> rfl

/-- The block indices at grid point t, decided over the ten points: the left operand and the output
    are both at row block t, column block 0; the right operand stays at block (0, 0). -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- The body's arithmetic on its two loaded blocks is their dense product: recasting a block to its own
    shape is the identity, narrowing to bf16 changes nothing over the extended reals, and the
    accumulator starts at zero. -/
theorem pay1_eq (x0 : Vec Ideal S10000x64 .bf16) (x1 : Vec Ideal S64x32 .f32) :
    k1_pay1 x0 x1 = dense (R := 10000) (K := 64) (J := 32) x0 x1 := by
  unfold k1_pay1
  dsimp only
  rw [shapeCast_self]
  refine (matmul_zero_eq_dense dot_S10000x64_S64x32_S10000x32_1_0_0_1_n_n none rfl rfl (fun _ _ => rfl) (fun _ _ => rfl)
    (fun _ _ => rfl) (fun _ _ => rfl) x0 (truncf .bf16 x1 bitsLt_bf16_f32)).trans ?_
  rfl

/-- What the body leaves in the output's buffer: it loads both buffers whole and stores once, whole,
    so the buffer ends holding the dense product of the two blocks. -/
theorem out1_eq (x0 : Vec Ideal S10000x64 .bf16) (x1 : Vec Ideal S64x32 .f32) :
    Gen.out1_2 x0 x1 = dense (R := 10000) (K := 64) (J := 32) x0 x1 := by
  unfold Gen.out1_2
  rw [View.canon_unit_zero zero_offsets1]
  simp only [View.ld_unit_zero (S := S10000x64) zero_offsets1, View.ld_unit_zero (S := S64x32) zero_offsets1]
  exact pay1_eq x0 x1

/-- The right operand's window is its whole array at every point: block index (0, 0), so the block read back is
    the array itself. -/
theorem iblk1_1_eq (c : Dev nD) (t : Fin cfg1.N) : (Gen.iblk1 V c 1 t : Vec Ideal S64x32 .f32) = V c main_arg4 := by
  obtain ⟨-, -, e2, e3, -, -⟩ := idx1 t
  funext y
  unfold Gen.iblk1
  rw [View.read_apply]
  show V c main_arg4 _ = V c main_arg4 y
  congr 1
  funext a
  apply Fin.ext
  match a with
  | ⟨0, _⟩ => show win1_1.index t 0 * 64 + 1 * (y 0).val = (y 0).val; rw [e2]; omega
  | ⟨1, _⟩ => show win1_1.index t 1 * 32 + 1 * (y 1).val = (y 1).val; rw [e3]; omega

/-- The left operand's block at point t holds rows 10000·t … 10000·t + 9999 of the array, all 64 columns. -/
theorem iblk1_0_apply (c : Dev nD) (t : Fin cfg1.N) (p : Fin 10000) (k : Fin 64) (r : Fin 100000) (hr : r.val = 10000 * t.val + p.val) :
    (Gen.iblk1 V c 0 t : Vec Ideal S10000x64 .bf16) (ix2 p k) = (V c main_v51 : S100000x64.Idx → EReal) (ix2 r k) := by
  obtain ⟨e0, e1, -, -, -, -⟩ := idx1 t
  unfold Gen.iblk1
  rw [View.read_apply]
  show V c main_v51 _ = V c main_v51 _
  congr 1
  funext a
  apply Fin.ext
  match a with
  | ⟨0, _⟩ => show win1_0.index t 0 * 10000 + 1 * p.val = r.val; rw [e0, hr]; omega
  | ⟨1, _⟩ => show win1_0.index t 1 * 64 + 1 * k.val = k.val; rw [e1]; omega

/-- What point t writes back is block t of the dense product of the two arrays as the region finds them: the
    body's product of its row block with the whole right operand is rows 10000·t … 10000·t + 9999 of the
    whole product, because a row of a product depends on that row of the left operand only. -/
theorem flushed1_eq (c : Dev nD) (t : Fin cfg1.N) :
    (Gen.dat1 V c).flushed 2 t = ((cfg1.win 2).blk t).view.read (Elt Ideal) (dense (R := 100000) (K := 64) (J := 32) (V c main_v51) (V c main_arg4)) := by
  show (cfg1.win 2).cut (grid1.coords t) ((Gen.dat1 V c).after 2 t) = _
  rw [Gen.after1_2]
  have ht : t.val < 10 := Nat.lt_of_lt_of_eq t.isLt (Gen.N_1 : cfg1.N = 10)
  obtain ⟨-, -, -, -, e4, e5⟩ := idx1 t
  funext j
  obtain ⟨p, q, rfl⟩ : ∃ (p : Fin 10000) (q : Fin 32), j = ix2 p q := ⟨j 0, j 1, eq_ix2 (n0 := 10000) (n1 := 32) j⟩
  show Gen.out1_2 (Gen.iblk1 V c 0 t) (Gen.iblk1 V c 1 t) (ix2 p q)
    = dense (R := 100000) (K := 64) (J := 32) (V c main_v51) (V c main_arg4) (((cfg1.win 2).blk t).view.emb (ix2 p q))
  have hemb : ((cfg1.win 2).blk t).view.emb (ix2 p q) = (ix2 (⟨10000 * t.val + p.val, by omega⟩ : Fin 100000) q : S100000x32.Idx) := by
    funext a; apply Fin.ext
    match a with
    | ⟨0, _⟩ => show win1_2.index t 0 * 10000 + 1 * p.val = 10000 * t.val + p.val; rw [e4]; omega
    | ⟨1, _⟩ => show win1_2.index t 1 * 32 + 1 * q.val = q.val; rw [e5]; omega
  rw [hemb]
  refine (congrFun (out1_eq (Gen.iblk1 V c 0 t) (Gen.iblk1 V c 1 t)) (ix2 p q)).trans ?_
  rw [iblk1_1_eq V c t]
  exact dense_rows (V c main_v51) (V c main_arg4) (Gen.iblk1 V c 0 t) ⟨10000 * t.val + p.val, by omega⟩ p q
    (fun k => iblk1_0_apply V c t p k _ rfl)

/-- An index of the output array is in point t's block iff each coordinate lies in the block's range on
    its axis: block index times block size, for block size many places. -/
theorem mem_blk1 (t : Fin cfg1.N) (i : S100000x32.Idx) :
    i ∈ ((cfg1.win 2).blk t).view.set ↔ ∀ a : Fin 2, win1_2.index t a * S10000x32.size a ≤ (i a).val ∧ (i a).val < win1_2.index t a * S10000x32.size a + S10000x32.size a := by
  show i ∈ ((View.whole main_v52).slice (win1_2.rect t)).set ↔ _
  rw [View.set_slice_whole, Rect.mem_set_unit]
  exact Iff.rfl

/-- The ten blocks tile the output: row r lies in the block of point r / 10000, and every point writes
    its block back. -/
theorem cover1 (i : S100000x32.Idx) : ∃ t : Fin cfg1.N, (cfg1.win 2).flush t = true ∧ i ∈ ((cfg1.win 2).blk t).view.set := by
  have hi0 : (i 0).val < 100000 := (i 0).isLt
  have hi1 : (i 1).val < 32 := (i 1).isLt
  have hN : cfg1.N = 10 := Gen.N_1
  have hlt : (i 0).val / 10000 < cfg1.N := Nat.lt_of_lt_of_eq (by omega) hN.symm
  obtain ⟨-, -, -, -, e4, e5⟩ := idx1 ⟨(i 0).val / 10000, hlt⟩
  refine ⟨⟨(i 0).val / 10000, hlt⟩, flush1_2 _, ?_⟩
  rw [mem_blk1]
  intro a
  match a with
  | ⟨0, _⟩ =>
    show win1_2.index ⟨(i 0).val / 10000, hlt⟩ 0 * 10000 ≤ (i 0).val ∧ (i 0).val < win1_2.index ⟨(i 0).val / 10000, hlt⟩ 0 * 10000 + 10000
    rw [e4]; show (i 0).val / 10000 * 10000 ≤ (i 0).val ∧ (i 0).val < (i 0).val / 10000 * 10000 + 10000; omega
  | ⟨1, _⟩ =>
    show win1_2.index ⟨(i 0).val / 10000, hlt⟩ 1 * 32 ≤ (i 1).val ∧ (i 1).val < win1_2.index ⟨(i 0).val / 10000, hlt⟩ 1 * 32 + 32
    rw [e5]; omega

/-- The output array after the region's ten points: the dense product of the left operand's array with
    the right operand's array, as the region found them. -/
theorem region1_array (V : (c : Dev nD) → (b : Ref sig .tc) → Buf (Elt Ideal) ((c : Thread nD τ).loc b)) (c : Dev nD) :
    (Gen.dat1 (F := Ideal) V c).arrAt 2 cfg1.N = Cert.Gcn.dense (R := 100000) (K := 64) (J := 32) (V c main_v51) (V c main_arg4) :=
  (Gen.dat1 V c).arrAt_eq_of_cover 2 (dense (R := 100000) (K := 64) (J := 32) (V c main_v51) (V c main_arg4))
    (fun t _ => flushed1_eq V c t) cover1

end Cert.KernelIdeal.RegionValue

end
-- ==== Proof.LibAfter.lean ====
/-
  The contents after two lines of host operations run one after the other: the fold of the concatenated
  line is the fold of the second line over the fold of the first. General; no program is imported.
-/
import Idealize.ShloMosaic.Lib.StableHlo.Run

namespace Idealize.ShloMosaic.StableHlo

variable {τ : Topo} {sig : RefSig} {Val : EltTy → Type}

/-- Folding the operations of `l₁ ++ l₂` over contents `V` is folding `l₂` over what `l₁` leaves. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

end Idealize.ShloMosaic.StableHlo
-- ==== Proof.RefSplit.lean ====
/-
  The reference program's line of host operations, cut where the graph convolution's stages end:
  the edge list with self loops and the symmetric normalisation (everything before the first dense
  product), the first dense product x·W1, the first layer's aggregation, bias and rectifier, the
  second dense product h·W2, and the second layer's aggregation and bias.  The line is the
  concatenation of the five pieces, so the buffers after the whole line are the fold of the pieces
  one after the other.  (The operations are the printed program's own, piece by piece.)
-/
import proofs.«181033_j75969381531758_2_alg».proof.Proof.RefRun
import proofs.«181033_j75969381531758_2_alg».proof.Proof.LibAfter

noncomputable section

namespace Cert.ReferenceIdeal.Stages

open Cert.ReferenceIdeal Cert.ReferenceIdeal.Gen Cert.ReferenceIdeal.ValueP Idealize.ShloMosaic Idealize.ShloMosaic.TcCoe Idealize.SL.Sem Idealize.ShloMosaic.StableHlo

variable {F : FTy → Type} [FloatOps F]

/-- Edges with self loops, degrees, and the normalisation coefficient of every edge (everything before the first product). -/
abbrev opsNorm : List (HloOp τ sig (Elt F)) :=
  [ nullary main_v0 (iotaInDim S100000 32 0),
    unary main_v0 main_v1 (broadcastInDim S1x100000 ![1] bcast_S100000_S1x100000_1 : (⟨S100000, .i32⟩ : BufTy).Contents (Elt F) → (⟨S1x100000, .i32⟩ : BufTy).Contents (Elt F)),
    reshape main_v1 main_v2 rfl shapeCasts_S1x100000_S1x1x1x100000,
    unary main_v2 main_v3 (broadcastInDim S2x1x1x100000 ![0, 1, 2, 3] bcast_S1x1x1x100000_S2x1x1x100000_0_1_2_3 : (⟨S1x1x1x100000, .i32⟩ : BufTy).Contents (Elt F) → (⟨S2x1x1x100000, .i32⟩ : BufTy).Contents (Elt F)),
    reshape main_v3 main_v4 rfl shapeCasts_S2x1x1x100000_S2x100000,
    binary main_arg1 main_v4 main_v5 ((fun a b => concatenate S2x1700000 1 [⟨S2x1600000, a⟩, ⟨S2x100000, b⟩] concatenates_S2x1600000_S2x100000_S2x1700000_d1) : (⟨S2x1600000, .i32⟩ : BufTy).Contents (Elt F) → (⟨S2x100000, .i32⟩ : BufTy).Contents (Elt F) → (⟨S2x1700000, .i32⟩ : BufTy).Contents (Elt F)),
    unary main_v5 main_v6 ((extractStridedSlice S1x1700000 ![0, 0] · slices_S2x1700000_S1x1700000_0_0) : (⟨S2x1700000, .i32⟩ : BufTy).Contents (Elt F) → (⟨S1x1700000, .i32⟩ : BufTy).Contents (Elt F)),
    reshape main_v6 main_v7 rfl shapeCasts_S1x1700000_S1700000,
    unary main_v5 main_v8 ((extractStridedSlice S1x1700000 ![1, 0] · slices_S2x1700000_S1x1700000_1_0) : (⟨S2x1700000, .i32⟩ : BufTy).Contents (Elt F) → (⟨S1x1700000, .i32⟩ : BufTy).Contents (Elt F)),
    reshape main_v8 main_v9 rfl shapeCasts_S1x1700000_S1700000,
    nullary main_cst (constant S_ .f32 0x3F800000#32),
    unary main_cst main_v10 (broadcastInDim S1700000 ![] bcast_S_S1700000 : (⟨S_, .f32⟩ : BufTy).Contents (Elt F) → (⟨S1700000, .f32⟩ : BufTy).Contents (Elt F)),
    nullary main_cst_0 (constant S_ .f32 0x00000000#32),
    unary main_cst_0 main_v11 (broadcastInDim S100000 ![] bcast_S_S100000 : (⟨S_, .f32⟩ : BufTy).Contents (Elt F) → (⟨S100000, .f32⟩ : BufTy).Contents (Elt F)),
    unary main_v9 main_v12 (broadcastInDim S1700000x1 ![0] bcast_S1700000_S1700000x1_0 : (⟨S1700000, .i32⟩ : BufTy).Contents (Elt F) → (⟨S1700000x1, .i32⟩ : BufTy).Contents (Elt F)),
    ternary main_v11 main_v12 main_v10 main_v13 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_1 (constant S_ .f32 0x00000000#32),
    unary main_cst_1 main_v14 (broadcastInDim S100000 ![] bcast_S_S100000 : (⟨S_, .f32⟩ : BufTy).Contents (Elt F) → (⟨S100000, .f32⟩ : BufTy).Contents (Elt F)),
    binary main_v13 main_v14 main_v15 (cmpf .ogt : (⟨S100000, .f32⟩ : BufTy).Contents (Elt F) → (⟨S100000, .f32⟩ : BufTy).Contents (Elt F) → (⟨S100000, .i1⟩ : BufTy).Contents (Elt F)),
    unary main_v13 main_v16 (Host.rsqrt : (⟨S100000, .f32⟩ : BufTy).Contents (Elt F) → (⟨S100000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v15) (TRef.of (T := ⟨S100000, .f32⟩) main_v16) (TRef.of (T := ⟨S100000, .f32⟩) main_call0_v1) (TRef.of (T := ⟨S100000, .f32⟩) main_v17) select,
    nullary main_c (constantI S_ 32 0#32),
    unary main_c main_v18 (broadcastInDim S1700000 ![] bcast_S_S1700000 : (⟨S_, .i32⟩ : BufTy).Contents (Elt F) → (⟨S1700000, .i32⟩ : BufTy).Contents (Elt F)),
    binary main_v7 main_v18 main_v19 (cmpi .slt : (⟨S1700000, .i32⟩ : BufTy).Contents (Elt F) → (⟨S1700000, .i32⟩ : BufTy).Contents (Elt F) → (⟨S1700000, .i1⟩ : BufTy).Contents (Elt F)),
    nullary main_c_3 (constantI S_ 32 100000#32),
    unary main_c_3 main_v20 (broadcastInDim S1700000 ![] bcast_S_S1700000 : (⟨S_, .i32⟩ : BufTy).Contents (Elt F) → (⟨S1700000, .i32⟩ : BufTy).Contents (Elt F)),
    binary main_v7 main_v20 main_v21 (addi : (⟨S1700000, .i32⟩ : BufTy).Contents (Elt F) → (⟨S1700000, .i32⟩ : BufTy).Contents (Elt F) → (⟨S1700000, .i32⟩ : BufTy).Contents (Elt F)),
    ternary main_v19 main_v21 main_v7 main_v22 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v22 main_v23 (broadcastInDim S1700000x1 ![0] bcast_S1700000_S1700000x1_0 : (⟨S1700000, .i32⟩ : BufTy).Contents (Elt F) → (⟨S1700000x1, .i32⟩ : BufTy).Contents (Elt F)),
    binary main_v17 main_v23 main_v24 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_4 (constantI S_ 32 0#32),
    unary main_c_4 main_v25 (broadcastInDim S1700000 ![] bcast_S_S1700000 : (⟨S_, .i32⟩ : BufTy).Contents (Elt F) → (⟨S1700000, .i32⟩ : BufTy).Contents (Elt F)),
    binary main_v9 main_v25 main_v26 (cmpi .slt : (⟨S1700000, .i32⟩ : BufTy).Contents (Elt F) → (⟨S1700000, .i32⟩ : BufTy).Contents (Elt F) → (⟨S1700000, .i1⟩ : BufTy).Contents (Elt F)),
    nullary main_c_5 (constantI S_ 32 100000#32),
    unary main_c_5 main_v27 (broadcastInDim S1700000 ![] bcast_S_S1700000 : (⟨S_, .i32⟩ : BufTy).Contents (Elt F) → (⟨S1700000, .i32⟩ : BufTy).Contents (Elt F)),
    binary main_v9 main_v27 main_v28 (addi : (⟨S1700000, .i32⟩ : BufTy).Contents (Elt F) → (⟨S1700000, .i32⟩ : BufTy).Contents (Elt F) → (⟨S1700000, .i32⟩ : BufTy).Contents (Elt F)),
    ternary main_v26 main_v28 main_v9 main_v29 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v29 main_v30 (broadcastInDim S1700000x1 ![0] bcast_S1700000_S1700000x1_0 : (⟨S1700000, .i32⟩ : BufTy).Contents (Elt F) → (⟨S1700000x1, .i32⟩ : BufTy).Contents (Elt F)),
    binary main_v17 main_v30 main_v31 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v24 main_v31 main_v32 (mulf : (⟨S1700000, .f32⟩ : BufTy).Contents (Elt F) → (⟨S1700000, .f32⟩ : BufTy).Contents (Elt F) → (⟨S1700000, .f32⟩ : BufTy).Contents (Elt F)) ]

/-- The first dense product, x·W1. -/
abbrev opsDot1 : List (HloOp τ sig (Elt F)) :=
  [ binary main_arg0 main_arg2 main_v33 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)) ]

/-- The first layer after its product: gather the source rows, scale by the coefficients, scatter-add into the target rows, add the bias, clamp below at zero. -/
abbrev opsLayer1 : List (HloOp τ sig (Elt F)) :=
  [ nullary main_c_6 (constantI S_ 32 0#32),
    unary main_c_6 main_v34 (broadcastInDim S1700000 ![] bcast_S_S1700000 : (⟨S_, .i32⟩ : BufTy).Contents (Elt F) → (⟨S1700000, .i32⟩ : BufTy).Contents (Elt F)),
    binary main_v7 main_v34 main_v35 (cmpi .slt : (⟨S1700000, .i32⟩ : BufTy).Contents (Elt F) → (⟨S1700000, .i32⟩ : BufTy).Contents (Elt F) → (⟨S1700000, .i1⟩ : BufTy).Contents (Elt F)),
    nullary main_c_7 (constantI S_ 32 100000#32),
    unary main_c_7 main_v36 (broadcastInDim S1700000 ![] bcast_S_S1700000 : (⟨S_, .i32⟩ : BufTy).Contents (Elt F) → (⟨S1700000, .i32⟩ : BufTy).Contents (Elt F)),
    binary main_v7 main_v36 main_v37 (addi : (⟨S1700000, .i32⟩ : BufTy).Contents (Elt F) → (⟨S1700000, .i32⟩ : BufTy).Contents (Elt F) → (⟨S1700000, .i32⟩ : BufTy).Contents (Elt F)),
    ternary main_v35 main_v37 main_v7 main_v38 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v38 main_v39 (broadcastInDim S1700000x1 ![0] bcast_S1700000_S1700000x1_0 : (⟨S1700000, .i32⟩ : BufTy).Contents (Elt F) → (⟨S1700000x1, .i32⟩ : BufTy).Contents (Elt F)),
    binary main_v33 main_v39 main_v40 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    unary main_v32 main_v41 (broadcastInDim S1700000x1 ![0] bcast_S1700000_S1700000x1_0 : (⟨S1700000, .f32⟩ : BufTy).Contents (Elt F) → (⟨S1700000x1, .f32⟩ : BufTy).Contents (Elt F)),
    unary main_v41 main_v42 (broadcastInDim S1700000x64 ![0, 1] bcast_S1700000x1_S1700000x64_0_1 : (⟨S1700000x1, .f32⟩ : BufTy).Contents (Elt F) → (⟨S1700000x64, .f32⟩ : BufTy).Contents (Elt F)),
    binary main_v40 main_v42 main_v43 (mulf : (⟨S1700000x64, .f32⟩ : BufTy).Contents (Elt F) → (⟨S1700000x64, .f32⟩ : BufTy).Contents (Elt F) → (⟨S1700000x64, .f32⟩ : BufTy).Contents (Elt F)),
    nullary main_cst_8 (constant S_ .f32 0x00000000#32),
    unary main_cst_8 main_v44 (broadcastInDim S100000x64 ![] bcast_S_S100000x64 : (⟨S_, .f32⟩ : BufTy).Contents (Elt F) → (⟨S100000x64, .f32⟩ : BufTy).Contents (Elt F)),
    unary main_v9 main_v45 (broadcastInDim S1700000x1 ![0] bcast_S1700000_S1700000x1_0 : (⟨S1700000, .i32⟩ : BufTy).Contents (Elt F) → (⟨S1700000x1, .i32⟩ : BufTy).Contents (Elt F)),
    ternary main_v44 main_v45 main_v43 main_v46 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)),
    unary main_arg3 main_v47 (broadcastInDim S1x64 ![1] bcast_S64_S1x64_1 : (⟨S64, .f32⟩ : BufTy).Contents (Elt F) → (⟨S1x64, .f32⟩ : BufTy).Contents (Elt F)),
    unary main_v47 main_v48 (broadcastInDim S100000x64 ![0, 1] bcast_S1x64_S100000x64_0_1 : (⟨S1x64, .f32⟩ : BufTy).Contents (Elt F) → (⟨S100000x64, .f32⟩ : BufTy).Contents (Elt F)),
    binary main_v46 main_v48 main_v49 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x64, .f32⟩) main_call1_v0) (broadcastInDim S100000x64 ![] bcast_S_S100000x64),
    TRef.binary (TRef.of (T := ⟨S100000x64, .f32⟩) main_v49) (TRef.of (T := ⟨S100000x64, .f32⟩) main_call1_v0) (TRef.of (T := ⟨S100000x64, .f32⟩) main_v50) maximumf ]

/-- The second dense product, h·W2. -/
abbrev opsDot2 : List (HloOp τ sig (Elt F)) :=
  [ binary main_v50 main_arg4 main_v51 ((fun l r => Host.dotGeneral dot_S100000x64_S64x32_S100000x32_1_0_0_1_n_n none l r) : (⟨S100000x64, .f32⟩ : BufTy).Contents (Elt F) → (⟨S64x32, .f32⟩ : BufTy).Contents (Elt F) → (⟨S100000x32, .f32⟩ : BufTy).Contents (Elt F)) ]

/-- The second layer after its product: gather, scale, scatter-add, add the bias. -/
abbrev opsLayer2 : List (HloOp τ sig (Elt F)) :=
  [ nullary main_c_9 (constantI S_ 32 0#32),
    unary main_c_9 main_v52 (broadcastInDim S1700000 ![] bcast_S_S1700000 : (⟨S_, .i32⟩ : BufTy).Contents (Elt F) → (⟨S1700000, .i32⟩ : BufTy).Contents (Elt F)),
    binary main_v7 main_v52 main_v53 (cmpi .slt : (⟨S1700000, .i32⟩ : BufTy).Contents (Elt F) → (⟨S1700000, .i32⟩ : BufTy).Contents (Elt F) → (⟨S1700000, .i1⟩ : BufTy).Contents (Elt F)),
    nullary main_c_10 (constantI S_ 32 100000#32),
    unary main_c_10 main_v54 (broadcastInDim S1700000 ![] bcast_S_S1700000 : (⟨S_, .i32⟩ : BufTy).Contents (Elt F) → (⟨S1700000, .i32⟩ : BufTy).Contents (Elt F)),
    binary main_v7 main_v54 main_v55 (addi : (⟨S1700000, .i32⟩ : BufTy).Contents (Elt F) → (⟨S1700000, .i32⟩ : BufTy).Contents (Elt F) → (⟨S1700000, .i32⟩ : BufTy).Contents (Elt F)),
    ternary main_v53 main_v55 main_v7 main_v56 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v56 main_v57 (broadcastInDim S1700000x1 ![0] bcast_S1700000_S1700000x1_0 : (⟨S1700000, .i32⟩ : BufTy).Contents (Elt F) → (⟨S1700000x1, .i32⟩ : BufTy).Contents (Elt F)),
    binary main_v51 main_v57 main_v58 ((fun x i => Host.gather gather_S100000x32_S1700000x1_S1700000x32_1_0_n_n_0_1_132 x i) : (⟨S100000x32, .f32⟩ : BufTy).Contents (Elt F) → (⟨S1700000x1, .i32⟩ : BufTy).Contents (Elt F) → (⟨S1700000x32, .f32⟩ : BufTy).Contents (Elt F)),
    unary main_v32 main_v59 (broadcastInDim S1700000x1 ![0] bcast_S1700000_S1700000x1_0 : (⟨S1700000, .f32⟩ : BufTy).Contents (Elt F) → (⟨S1700000x1, .f32⟩ : BufTy).Contents (Elt F)),
    unary main_v59 main_v60 (broadcastInDim S1700000x32 ![0, 1] bcast_S1700000x1_S1700000x32_0_1 : (⟨S1700000x1, .f32⟩ : BufTy).Contents (Elt F) → (⟨S1700000x32, .f32⟩ : BufTy).Contents (Elt F)),
    binary main_v58 main_v60 main_v61 (mulf : (⟨S1700000x32, .f32⟩ : BufTy).Contents (Elt F) → (⟨S1700000x32, .f32⟩ : BufTy).Contents (Elt F) → (⟨S1700000x32, .f32⟩ : BufTy).Contents (Elt F)),
    nullary main_cst_11 (constant S_ .f32 0x00000000#32),
    unary main_cst_11 main_v62 (broadcastInDim S100000x32 ![] bcast_S_S100000x32 : (⟨S_, .f32⟩ : BufTy).Contents (Elt F) → (⟨S100000x32, .f32⟩ : BufTy).Contents (Elt F)),
    unary main_v9 main_v63 (broadcastInDim S1700000x1 ![0] bcast_S1700000_S1700000x1_0 : (⟨S1700000, .i32⟩ : BufTy).Contents (Elt F) → (⟨S1700000x1, .i32⟩ : BufTy).Contents (Elt F)),
    ternary main_v62 main_v63 main_v61 main_v64 ((fun x i u => Host.scatterAdd scatter_S100000x32_S1700000x1_S1700000x32_1_0_0_1 x i u) : (⟨S100000x32, .f32⟩ : BufTy).Contents (Elt F) → (⟨S1700000x1, .i32⟩ : BufTy).Contents (Elt F) → (⟨S1700000x32, .f32⟩ : BufTy).Contents (Elt F) → (⟨S100000x32, .f32⟩ : BufTy).Contents (Elt F)),
    unary main_arg5 main_v65 (broadcastInDim S1x32 ![1] bcast_S32_S1x32_1 : (⟨S32, .f32⟩ : BufTy).Contents (Elt F) → (⟨S1x32, .f32⟩ : BufTy).Contents (Elt F)),
    unary main_v65 main_v66 (broadcastInDim S100000x32 ![0, 1] bcast_S1x32_S100000x32_0_1 : (⟨S1x32, .f32⟩ : BufTy).Contents (Elt F) → (⟨S100000x32, .f32⟩ : BufTy).Contents (Elt F)),
    binary main_v64 main_v66 main_v67 (addf : (⟨S100000x32, .f32⟩ : BufTy).Contents (Elt F) → (⟨S100000x32, .f32⟩ : BufTy).Contents (Elt F) → (⟨S100000x32, .f32⟩ : BufTy).Contents (Elt F)) ]

set_option maxRecDepth 8192 in
/-- The line is its five pieces in order. -/
theorem ops_eq : (ops : List (HloOp τ sig (Elt F))) = opsNorm ++ (opsDot1 ++ (opsLayer1 ++ (opsDot2 ++ opsLayer2))) := rfl

/-- The buffers after the whole line: the pieces folded one after the other. -/
theorem after_ops (V : Valuation τ sig (Elt F)) :
    after (ops (F := F)) V = after opsLayer2 (after opsDot2 (after opsLayer1 (after opsDot1 (after opsNorm V)))) := by
  rw [ops_eq, after_append, after_append, after_append, after_append]

end Cert.ReferenceIdeal.Stages

end
-- ==== Proof.StageNorm.lean ====
/-
  Everything before the first dense product, in the kernel's program and in the reference: the
  edge list with one self loop per node appended, its two rows as the source and target index of
  every edge, the degree of every node (a scatter-add of ones at the targets), its inverse square
  root where the degree is positive and zero elsewhere, and the coefficient of every edge, the
  product of that quantity at its two endpoints.  The two programs apply the same operations to
  the edge array, so from buffers agreeing on it they leave the same source indices, target
  indices and coefficients; the chain is never opened.
-/
import proofs.«181033_j75969381531758_2_alg».proof.Proof.Gen.KernelIdeal.Launch
import proofs.«181033_j75969381531758_2_alg».proof.Proof.RefSplit

noncomputable section

namespace Cert.Bridge

open Idealize.ShloMosaic Idealize.ShloMosaic.TcCoe Idealize.ShloMosaic.StableHlo

variable {F : FTy → Type} [FloatOps F]

local notation "VK" => Valuation Cert.KernelIdeal.τ Cert.KernelIdeal.sig (Elt F)
local notation "VR" => Valuation Cert.ReferenceIdeal.τ Cert.ReferenceIdeal.sig (Elt F)
local notation "k[" b "]" => (Proc.devRef (τ := Cert.KernelIdeal.τ) Proc.tc b)
local notation "r[" b "]" => (Proc.devRef (τ := Cert.ReferenceIdeal.τ) Proc.tc b)

/-- The two operands of the edge list's concatenation, still written as reads of buffers after
    the first operations, read back: each operation's result buffer holds its function's value and
    every other buffer keeps its contents. -/
local macro "read_operands" : tactic =>
  `(tactic| repeat (first
      | rw [nullary_result] | rw [unary_result] | rw [binary_result] | rw [reshape_result]
      | (rw [nullary_result_ne]; rotate_left; decide)
      | (rw [unary_result_ne]; rotate_left; decide)
      | (rw [binary_result_ne]; rotate_left; decide)
      | (rw [reshape_result_ne]; rotate_left; decide)))

/-- The source index of every edge. -/
theorem norm_row (vk : VK) (vr : VR)
    (he : vk k[Cert.KernelIdeal.main_arg1] = vr r[Cert.ReferenceIdeal.main_arg1]) :
    after (Cert.KernelIdeal.Gen.hostOps0_2 (F := F)) (after (Cert.KernelIdeal.Gen.hostOps0_1 (F := F)) (after (Cert.KernelIdeal.Gen.hostOps0 (F := F)) vk)) k[Cert.KernelIdeal.main_v7]
      = after (Cert.ReferenceIdeal.Stages.opsNorm (F := F)) vr r[Cert.ReferenceIdeal.main_v7] := by
  after_results_simp
  read_operands
  rw [he]
  rfl

/-- The target index of every edge. -/
theorem norm_col (vk : VK) (vr : VR)
    (he : vk k[Cert.KernelIdeal.main_arg1] = vr r[Cert.ReferenceIdeal.main_arg1]) :
    after (Cert.KernelIdeal.Gen.hostOps0_2 (F := F)) (after (Cert.KernelIdeal.Gen.hostOps0_1 (F := F)) (after (Cert.KernelIdeal.Gen.hostOps0 (F := F)) vk)) k[Cert.KernelIdeal.main_v9]
      = after (Cert.ReferenceIdeal.Stages.opsNorm (F := F)) vr r[Cert.ReferenceIdeal.main_v9] := by
  after_results_simp
  read_operands
  rw [he]
  rfl

/-- The normalisation coefficient of every edge. -/
theorem norm_coeff (vk : VK) (vr : VR)
    (he : vk k[Cert.KernelIdeal.main_arg1] = vr r[Cert.ReferenceIdeal.main_arg1]) :
    after (Cert.KernelIdeal.Gen.hostOps0_2 (F := F)) (after (Cert.KernelIdeal.Gen.hostOps0_1 (F := F)) (after (Cert.KernelIdeal.Gen.hostOps0 (F := F)) vk)) k[Cert.KernelIdeal.main_v32]
      = after (Cert.ReferenceIdeal.Stages.opsNorm (F := F)) vr r[Cert.ReferenceIdeal.main_v32] := by
  after_results_simp
  read_operands
  rw [he]
  rfl

end Cert.Bridge

end
-- ==== Proof.StageLayer1.lean ====
/-
  The first layer after its dense product, in the kernel's program and in the reference: gather
  row `row e` of the product for every edge e, scale by the edge's coefficient, add into row
  `col e` of a zero matrix, add the bias, and clamp below at zero.  The two programs apply the same
  operations (the kernel's in two stretches, the rectifier being an outlined function), so from
  buffers agreeing on the operands the rectified activations agree; the chain is never opened.
-/
import proofs.«181033_j75969381531758_2_alg».proof.Proof.Gen.KernelIdeal.Launch
import proofs.«181033_j75969381531758_2_alg».proof.Proof.RefSplit

noncomputable section

namespace Cert.Bridge

open Idealize.ShloMosaic Idealize.ShloMosaic.TcCoe Idealize.ShloMosaic.StableHlo

variable {F : FTy → Type} [FloatOps F]

local notation "VK" => Valuation Cert.KernelIdeal.τ Cert.KernelIdeal.sig (Elt F)
local notation "VR" => Valuation Cert.ReferenceIdeal.τ Cert.ReferenceIdeal.sig (Elt F)
local notation "k[" b "]" => (Proc.devRef (τ := Cert.KernelIdeal.τ) Proc.tc b)
local notation "r[" b "]" => (Proc.devRef (τ := Cert.ReferenceIdeal.τ) Proc.tc b)

/-- The two programs' first-layer stretches give the same activations from agreeing operands. -/
theorem layer1 (vk : VK) (vr : VR)
    (hP : vk k[Cert.KernelIdeal.main_v33] = vr r[Cert.ReferenceIdeal.main_v33])
    (hrow : vk k[Cert.KernelIdeal.main_v7] = vr r[Cert.ReferenceIdeal.main_v7])
    (hcol : vk k[Cert.KernelIdeal.main_v9] = vr r[Cert.ReferenceIdeal.main_v9])
    (hnorm : vk k[Cert.KernelIdeal.main_v32] = vr r[Cert.ReferenceIdeal.main_v32])
    (hb : vk k[Cert.KernelIdeal.main_arg3] = vr r[Cert.ReferenceIdeal.main_arg3]) :
    after (Cert.KernelIdeal.Gen.hostOps1_1 (F := F)) (after (Cert.KernelIdeal.Gen.hostOps1 (F := F)) vk) k[Cert.KernelIdeal.main_v50]
      = after (Cert.ReferenceIdeal.Stages.opsLayer1 (F := F)) vr r[Cert.ReferenceIdeal.main_v50] := by
  after_results_simp
  rw [hP, hrow, hcol, hnorm, hb]
  rfl

end Cert.Bridge

end
-- ==== Proof.StageLayer2.lean ====
/-
  The second layer after its dense product, in the kernel's program and in the reference.  Both
  apply the same operations: gather row `row e` of the product for every edge e, scale it by the
  edge's normalisation coefficient, add it into row `col e` of a zero matrix, add the bias to
  every row.  So from buffers that agree on the product, the edge endpoints, the coefficients and
  the bias, the two programs' results agree — whatever those contents are, and at any float
  values: the chain is carried whole and never opened.
-/
import proofs.«181033_j75969381531758_2_alg».proof.Proof.Gen.KernelIdeal.Launch
import proofs.«181033_j75969381531758_2_alg».proof.Proof.RefSplit

noncomputable section

namespace Cert.Bridge

open Idealize.ShloMosaic Idealize.ShloMosaic.TcCoe Idealize.ShloMosaic.StableHlo

variable {F : FTy → Type} [FloatOps F]

local notation "VK" => Valuation Cert.KernelIdeal.τ Cert.KernelIdeal.sig (Elt F)
local notation "VR" => Valuation Cert.ReferenceIdeal.τ Cert.ReferenceIdeal.sig (Elt F)
local notation "k[" b "]" => (Proc.devRef (τ := Cert.KernelIdeal.τ) Proc.tc b)
local notation "r[" b "]" => (Proc.devRef (τ := Cert.ReferenceIdeal.τ) Proc.tc b)

/-- The two programs' last stretches give the same result from agreeing operands. -/
theorem layer2 (vk : VK) (vr : VR)
    (hP : vk k[Cert.KernelIdeal.main_v52] = vr r[Cert.ReferenceIdeal.main_v51])
    (hrow : vk k[Cert.KernelIdeal.main_v7] = vr r[Cert.ReferenceIdeal.main_v7])
    (hcol : vk k[Cert.KernelIdeal.main_v9] = vr r[Cert.ReferenceIdeal.main_v9])
    (hnorm : vk k[Cert.KernelIdeal.main_v32] = vr r[Cert.ReferenceIdeal.main_v32])
    (hb : vk k[Cert.KernelIdeal.main_arg5] = vr r[Cert.ReferenceIdeal.main_arg5]) :
    after (Cert.KernelIdeal.Gen.hostOps2 (F := F)) vk k[Cert.KernelIdeal.main_v68]
      = after (Cert.ReferenceIdeal.Stages.opsLayer2 (F := F)) vr r[Cert.ReferenceIdeal.main_v67] := by
  after_results_simp
  rw [hP, hrow, hcol, hnorm, hb]
  rfl

end Cert.Bridge

end
-- ==== Proof.Kept.lean ====
/-
  Which buffers a stretch of host operations leaves alone, in the kernel's program and in the
  reference, over arbitrary contents: the arguments are never written, and the edge endpoints and
  coefficients computed before the first product are only read afterwards.  And what the
  reference's two product operations leave in their result buffers: the product of the contents
  of their operand buffers.
-/
import proofs.«181033_j75969381531758_2_alg».proof.Proof.Gen.KernelIdeal.Launch
import proofs.«181033_j75969381531758_2_alg».proof.Proof.RefSplit
import Idealize.ShloMosaic.PureOps.Ideal

noncomputable section

namespace Cert.Bridge

open Idealize.ShloMosaic Idealize.ShloMosaic.TcCoe Idealize.ShloMosaic.StableHlo

variable {F : FTy → Type} [FloatOps F]

local notation "VK" => Valuation Cert.KernelIdeal.τ Cert.KernelIdeal.sig (Elt F)
local notation "VR" => Valuation Cert.ReferenceIdeal.τ Cert.ReferenceIdeal.sig (Elt F)
local notation "k[" b "]" => (Proc.devRef (τ := Cert.KernelIdeal.τ) Proc.tc b)
local notation "r[" b "]" => (Proc.devRef (τ := Cert.ReferenceIdeal.τ) Proc.tc b)
theorem keptK_pre_main_arg0 (V : VK) : after (Cert.KernelIdeal.Gen.hostOps0_2 (F := F)) (after (Cert.KernelIdeal.Gen.hostOps0_1 (F := F)) (after (Cert.KernelIdeal.Gen.hostOps0 (F := F)) V)) k[Cert.KernelIdeal.main_arg0] = V k[Cert.KernelIdeal.main_arg0] := by
  after_results_simp
theorem keptK_pre_main_arg2 (V : VK) : after (Cert.KernelIdeal.Gen.hostOps0_2 (F := F)) (after (Cert.KernelIdeal.Gen.hostOps0_1 (F := F)) (after (Cert.KernelIdeal.Gen.hostOps0 (F := F)) V)) k[Cert.KernelIdeal.main_arg2] = V k[Cert.KernelIdeal.main_arg2] := by
  after_results_simp
theorem keptK_pre_main_arg3 (V : VK) : after (Cert.KernelIdeal.Gen.hostOps0_2 (F := F)) (after (Cert.KernelIdeal.Gen.hostOps0_1 (F := F)) (after (Cert.KernelIdeal.Gen.hostOps0 (F := F)) V)) k[Cert.KernelIdeal.main_arg3] = V k[Cert.KernelIdeal.main_arg3] := by
  after_results_simp
theorem keptK_pre_main_arg4 (V : VK) : after (Cert.KernelIdeal.Gen.hostOps0_2 (F := F)) (after (Cert.KernelIdeal.Gen.hostOps0_1 (F := F)) (after (Cert.KernelIdeal.Gen.hostOps0 (F := F)) V)) k[Cert.KernelIdeal.main_arg4] = V k[Cert.KernelIdeal.main_arg4] := by
  after_results_simp
theorem keptK_pre_main_arg5 (V : VK) : after (Cert.KernelIdeal.Gen.hostOps0_2 (F := F)) (after (Cert.KernelIdeal.Gen.hostOps0_1 (F := F)) (after (Cert.KernelIdeal.Gen.hostOps0 (F := F)) V)) k[Cert.KernelIdeal.main_arg5] = V k[Cert.KernelIdeal.main_arg5] := by
  after_results_simp

theorem keptK_mid_main_v7 (V : VK) : after (Cert.KernelIdeal.Gen.hostOps1_2 (F := F)) (after (Cert.KernelIdeal.Gen.hostOps1_1 (F := F)) (after (Cert.KernelIdeal.Gen.hostOps1 (F := F)) V)) k[Cert.KernelIdeal.main_v7] = V k[Cert.KernelIdeal.main_v7] := by
  after_results_simp
theorem keptK_mid_main_v9 (V : VK) : after (Cert.KernelIdeal.Gen.hostOps1_2 (F := F)) (after (Cert.KernelIdeal.Gen.hostOps1_1 (F := F)) (after (Cert.KernelIdeal.Gen.hostOps1 (F := F)) V)) k[Cert.KernelIdeal.main_v9] = V k[Cert.KernelIdeal.main_v9] := by
  after_results_simp
theorem keptK_mid_main_v32 (V : VK) : after (Cert.KernelIdeal.Gen.hostOps1_2 (F := F)) (after (Cert.KernelIdeal.Gen.hostOps1_1 (F := F)) (after (Cert.KernelIdeal.Gen.hostOps1 (F := F)) V)) k[Cert.KernelIdeal.main_v32] = V k[Cert.KernelIdeal.main_v32] := by
  after_results_simp
theorem keptK_mid_main_arg4 (V : VK) : after (Cert.KernelIdeal.Gen.hostOps1_2 (F := F)) (after (Cert.KernelIdeal.Gen.hostOps1_1 (F := F)) (after (Cert.KernelIdeal.Gen.hostOps1 (F := F)) V)) k[Cert.KernelIdeal.main_arg4] = V k[Cert.KernelIdeal.main_arg4] := by
  after_results_simp
theorem keptK_mid_main_arg5 (V : VK) : after (Cert.KernelIdeal.Gen.hostOps1_2 (F := F)) (after (Cert.KernelIdeal.Gen.hostOps1_1 (F := F)) (after (Cert.KernelIdeal.Gen.hostOps1 (F := F)) V)) k[Cert.KernelIdeal.main_arg5] = V k[Cert.KernelIdeal.main_arg5] := by
  after_results_simp

theorem keptR_norm_main_arg0 (V : VR) : after (Cert.ReferenceIdeal.Stages.opsNorm (F := F)) V r[Cert.ReferenceIdeal.main_arg0] = V r[Cert.ReferenceIdeal.main_arg0] := by
  after_results_simp
theorem keptR_norm_main_arg2 (V : VR) : after (Cert.ReferenceIdeal.Stages.opsNorm (F := F)) V r[Cert.ReferenceIdeal.main_arg2] = V r[Cert.ReferenceIdeal.main_arg2] := by
  after_results_simp
theorem keptR_norm_main_arg3 (V : VR) : after (Cert.ReferenceIdeal.Stages.opsNorm (F := F)) V r[Cert.ReferenceIdeal.main_arg3] = V r[Cert.ReferenceIdeal.main_arg3] := by
  after_results_simp
theorem keptR_norm_main_arg4 (V : VR) : after (Cert.ReferenceIdeal.Stages.opsNorm (F := F)) V r[Cert.ReferenceIdeal.main_arg4] = V r[Cert.ReferenceIdeal.main_arg4] := by
  after_results_simp
theorem keptR_norm_main_arg5 (V : VR) : after (Cert.ReferenceIdeal.Stages.opsNorm (F := F)) V r[Cert.ReferenceIdeal.main_arg5] = V r[Cert.ReferenceIdeal.main_arg5] := by
  after_results_simp

theorem keptR_dot1_main_v7 (V : VR) : after (Cert.ReferenceIdeal.Stages.opsDot1 (F := F)) V r[Cert.ReferenceIdeal.main_v7] = V r[Cert.ReferenceIdeal.main_v7] := by
  after_results_simp
theorem keptR_dot1_main_v9 (V : VR) : after (Cert.ReferenceIdeal.Stages.opsDot1 (F := F)) V r[Cert.ReferenceIdeal.main_v9] = V r[Cert.ReferenceIdeal.main_v9] := by
  after_results_simp
theorem keptR_dot1_main_v32 (V : VR) : after (Cert.ReferenceIdeal.Stages.opsDot1 (F := F)) V r[Cert.ReferenceIdeal.main_v32] = V r[Cert.ReferenceIdeal.main_v32] := by
  after_results_simp
theorem keptR_dot1_main_arg3 (V : VR) : after (Cert.ReferenceIdeal.Stages.opsDot1 (F := F)) V r[Cert.ReferenceIdeal.main_arg3] = V r[Cert.ReferenceIdeal.main_arg3] := by
  after_results_simp
theorem keptR_dot1_main_arg4 (V : VR) : after (Cert.ReferenceIdeal.Stages.opsDot1 (F := F)) V r[Cert.ReferenceIdeal.main_arg4] = V r[Cert.ReferenceIdeal.main_arg4] := by
  after_results_simp
theorem keptR_dot1_main_arg5 (V : VR) : after (Cert.ReferenceIdeal.Stages.opsDot1 (F := F)) V r[Cert.ReferenceIdeal.main_arg5] = V r[Cert.ReferenceIdeal.main_arg5] := by
  after_results_simp

theorem keptR_layer1_main_v7 (V : VR) : after (Cert.ReferenceIdeal.Stages.opsLayer1 (F := F)) V r[Cert.ReferenceIdeal.main_v7] = V r[Cert.ReferenceIdeal.main_v7] := by
  after_results_simp
theorem keptR_layer1_main_v9 (V : VR) : after (Cert.ReferenceIdeal.Stages.opsLayer1 (F := F)) V r[Cert.ReferenceIdeal.main_v9] = V r[Cert.ReferenceIdeal.main_v9] := by
  after_results_simp
theorem keptR_layer1_main_v32 (V : VR) : after (Cert.ReferenceIdeal.Stages.opsLayer1 (F := F)) V r[Cert.ReferenceIdeal.main_v32] = V r[Cert.ReferenceIdeal.main_v32] := by
  after_results_simp
theorem keptR_layer1_main_arg4 (V : VR) : after (Cert.ReferenceIdeal.Stages.opsLayer1 (F := F)) V r[Cert.ReferenceIdeal.main_arg4] = V r[Cert.ReferenceIdeal.main_arg4] := by
  after_results_simp
theorem keptR_layer1_main_arg5 (V : VR) : after (Cert.ReferenceIdeal.Stages.opsLayer1 (F := F)) V r[Cert.ReferenceIdeal.main_arg5] = V r[Cert.ReferenceIdeal.main_arg5] := by
  after_results_simp

theorem keptR_dot2_main_v7 (V : VR) : after (Cert.ReferenceIdeal.Stages.opsDot2 (F := F)) V r[Cert.ReferenceIdeal.main_v7] = V r[Cert.ReferenceIdeal.main_v7] := by
  after_results_simp
theorem keptR_dot2_main_v9 (V : VR) : after (Cert.ReferenceIdeal.Stages.opsDot2 (F := F)) V r[Cert.ReferenceIdeal.main_v9] = V r[Cert.ReferenceIdeal.main_v9] := by
  after_results_simp
theorem keptR_dot2_main_v32 (V : VR) : after (Cert.ReferenceIdeal.Stages.opsDot2 (F := F)) V r[Cert.ReferenceIdeal.main_v32] = V r[Cert.ReferenceIdeal.main_v32] := by
  after_results_simp
theorem keptR_dot2_main_arg5 (V : VR) : after (Cert.ReferenceIdeal.Stages.opsDot2 (F := F)) V r[Cert.ReferenceIdeal.main_arg5] = V r[Cert.ReferenceIdeal.main_arg5] := by
  after_results_simp

/-- The reference's first product operation leaves the product of its operand buffers' contents. -/
theorem valR_dot1 (V : VR) : after (Cert.ReferenceIdeal.Stages.opsDot1 (F := F)) V r[Cert.ReferenceIdeal.main_v33]
    = Host.dotGeneral Cert.ReferenceIdeal.dot_S100000x128_S128x64_S100000x64_1_0_0_1_n_n none (V r[Cert.ReferenceIdeal.main_arg0]) (V r[Cert.ReferenceIdeal.main_arg2]) := by
  after_results_simp

/-- The reference's second product operation leaves the product of its operand buffers' contents. -/
theorem valR_dot2 (V : VR) : after (Cert.ReferenceIdeal.Stages.opsDot2 (F := F)) V r[Cert.ReferenceIdeal.main_v51]
    = Host.dotGeneral Cert.ReferenceIdeal.dot_S100000x64_S64x32_S100000x32_1_0_0_1_n_n none (V r[Cert.ReferenceIdeal.main_v50]) (V r[Cert.ReferenceIdeal.main_arg4]) := by
  after_results_simp

/-- The kernel program's conversion of the activations to the narrower float format, one operation: on exact values
    the narrowing is the identity, so the converted buffer holds the activations themselves. -/
theorem valK_cast (V : Valuation Cert.KernelIdeal.τ Cert.KernelIdeal.sig (Elt Ideal)) :
    (after (Cert.KernelIdeal.Gen.hostOps1_2 (F := Ideal)) V k[Cert.KernelIdeal.main_v51] : (⟨2, ![100000, 64]⟩ : Shape).Idx → EReal)
      = V k[Cert.KernelIdeal.main_v50] := by
  after_results_simp
  rfl

end Cert.Bridge

end
-- ==== Proof.Bridge.lean ====
/-
  The two programs' results are one array.  The kernel's program and the reference are followed
  side by side, stage by stage, as buffer contents, from launch contents that agree on the six
  arguments:

    * before the first product both hold the same edge endpoints `row`, `col` and coefficients
      `norm` (the same operations of the edge array);
    * the kernel's first region leaves in its output array the dense product of x and W1 and keeps
      every other buffer (hypotheses here: they are the region's own facts), and the reference's
      product operation leaves the same sums;
    * both then apply the first layer's aggregation, bias and rectifier to agreeing operands; the
      kernel's program also narrows the activations' float format, which on exact values changes
      nothing;
    * the second region and the second product operation again leave the same dense product;
    * both apply the second layer's aggregation and bias.

  All contents are variables: the statement is about the operations, not about any particular
  memory.  Nothing needs the inputs to be finite: the only law used between the two sides is that
  a finite sum of extended reals does not depend on how it is indexed.
-/
import proofs.«181033_j75969381531758_2_alg».proof.Proof.Gen.KernelIdeal.Launch
import proofs.«181033_j75969381531758_2_alg».proof.Proof.RefSplit
import proofs.«181033_j75969381531758_2_alg».proof.Proof.StageNorm
import proofs.«181033_j75969381531758_2_alg».proof.Proof.StageLayer1
import proofs.«181033_j75969381531758_2_alg».proof.Proof.StageLayer2
import proofs.«181033_j75969381531758_2_alg».proof.Proof.Kept
import proofs.«181033_j75969381531758_2_alg».proof.Proof.Dense

noncomputable section

namespace Cert.Bridge

open Idealize.ShloMosaic Idealize.ShloMosaic.TcCoe Idealize.ShloMosaic.StableHlo Idealize.SL.Sem
open Cert.Gcn

local notation "k[" b "]" => (Proc.devRef (τ := Cert.KernelIdeal.τ) Proc.tc b)
local notation "r[" b "]" => (Proc.devRef (τ := Cert.ReferenceIdeal.τ) Proc.tc b)

/-- The reference's two product operations are dense products. -/
theorem dot1_dense (x : (⟨2, ![100000, 128]⟩ : Shape).Idx → EReal) (w : (⟨2, ![128, 64]⟩ : Shape).Idx → EReal) :
    Host.dotGeneral (F := Ideal) (φ₁ := .f32) (φ₂ := .f32) Cert.ReferenceIdeal.dot_S100000x128_S128x64_S100000x64_1_0_0_1_n_n none x w = dense x w :=
  dotGeneral_eq_dense _ _ _ rfl rfl (fun _ _ => rfl) (fun _ _ => rfl) (fun _ _ => rfl) (fun _ _ => rfl) x w

theorem dot2_dense (x : (⟨2, ![100000, 64]⟩ : Shape).Idx → EReal) (w : (⟨2, ![64, 32]⟩ : Shape).Idx → EReal) :
    Host.dotGeneral (F := Ideal) (φ₁ := .f32) (φ₂ := .f32) Cert.ReferenceIdeal.dot_S100000x64_S64x32_S100000x32_1_0_0_1_n_n none x w = dense x w :=
  dotGeneral_eq_dense _ _ _ rfl rfl (fun _ _ => rfl) (fun _ _ => rfl) (fun _ _ => rfl) (fun _ _ => rfl) x w

/-- The kernel program's buffer contents when its first region is entered, from contents `A` at launch. -/
abbrev A3 (A : Valuation Cert.KernelIdeal.τ Cert.KernelIdeal.sig (Elt Ideal)) : Valuation Cert.KernelIdeal.τ Cert.KernelIdeal.sig (Elt Ideal) :=
  after (Cert.KernelIdeal.Gen.hostOps0_2 (F := Ideal)) (after (Cert.KernelIdeal.Gen.hostOps0_1 (F := Ideal)) (after (Cert.KernelIdeal.Gen.hostOps0 (F := Ideal)) A))
/-- … after the first layer's rectifier, from contents `A` at the first region's exit; -/
abbrev A6 (A : Valuation Cert.KernelIdeal.τ Cert.KernelIdeal.sig (Elt Ideal)) : Valuation Cert.KernelIdeal.τ Cert.KernelIdeal.sig (Elt Ideal) := after (Cert.KernelIdeal.Gen.hostOps1_1 (F := Ideal)) (after (Cert.KernelIdeal.Gen.hostOps1 (F := Ideal)) A)
/-- … and when its second region is entered. -/
abbrev A7 (A : Valuation Cert.KernelIdeal.τ Cert.KernelIdeal.sig (Elt Ideal)) : Valuation Cert.KernelIdeal.τ Cert.KernelIdeal.sig (Elt Ideal) := after (Cert.KernelIdeal.Gen.hostOps1_2 (F := Ideal)) (A6 A)
/-- The reference's buffer contents after each of its first four pieces, from contents `B` at launch. -/
abbrev B1 (B : Valuation Cert.ReferenceIdeal.τ Cert.ReferenceIdeal.sig (Elt Ideal)) : Valuation Cert.ReferenceIdeal.τ Cert.ReferenceIdeal.sig (Elt Ideal) := after (Cert.ReferenceIdeal.Stages.opsNorm (F := Ideal)) B
abbrev B2 (B : Valuation Cert.ReferenceIdeal.τ Cert.ReferenceIdeal.sig (Elt Ideal)) : Valuation Cert.ReferenceIdeal.τ Cert.ReferenceIdeal.sig (Elt Ideal) := after (Cert.ReferenceIdeal.Stages.opsDot1 (F := Ideal)) (B1 B)
abbrev B3 (B : Valuation Cert.ReferenceIdeal.τ Cert.ReferenceIdeal.sig (Elt Ideal)) : Valuation Cert.ReferenceIdeal.τ Cert.ReferenceIdeal.sig (Elt Ideal) := after (Cert.ReferenceIdeal.Stages.opsLayer1 (F := Ideal)) (B2 B)
abbrev B4 (B : Valuation Cert.ReferenceIdeal.τ Cert.ReferenceIdeal.sig (Elt Ideal)) : Valuation Cert.ReferenceIdeal.τ Cert.ReferenceIdeal.sig (Elt Ideal) := after (Cert.ReferenceIdeal.Stages.opsDot2 (F := Ideal)) (B3 B)

section
open Cert.KernelIdeal

/-- From launch contents `A0`, `B0` agreeing on the arguments: if the kernel program's contents `A4` at its first
    region's exit are the entry contents with the output array at the dense product of x and W1, and its contents
    `A8` at the second region's exit are that region's entry contents with the output array at the dense product of
    the activations and W2, then its last stretch leaves in the result buffer what the reference's whole line leaves
    in its result buffer. -/
theorem result_eq_of (A0 A4 A8 : Valuation Cert.KernelIdeal.τ Cert.KernelIdeal.sig (Elt Ideal)) (B0 : Valuation Cert.ReferenceIdeal.τ Cert.ReferenceIdeal.sig (Elt Ideal))
    (e0 : A0 k[main_arg0] = B0 r[Cert.ReferenceIdeal.main_arg0]) (e1 : A0 k[main_arg1] = B0 r[Cert.ReferenceIdeal.main_arg1])
    (e2 : A0 k[main_arg2] = B0 r[Cert.ReferenceIdeal.main_arg2]) (e3 : A0 k[main_arg3] = B0 r[Cert.ReferenceIdeal.main_arg3])
    (e4 : A0 k[main_arg4] = B0 r[Cert.ReferenceIdeal.main_arg4]) (e5 : A0 k[main_arg5] = B0 r[Cert.ReferenceIdeal.main_arg5])
    (hreg0 : A4 k[main_v33] = dense (R := 100000) (K := 128) (J := 64) (A3 A0 k[main_arg0]) (A3 A0 k[main_arg2]))
    (k4_v7 : A4 k[main_v7] = A3 A0 k[main_v7]) (k4_v9 : A4 k[main_v9] = A3 A0 k[main_v9])
    (k4_v32 : A4 k[main_v32] = A3 A0 k[main_v32]) (k4_a3 : A4 k[main_arg3] = A3 A0 k[main_arg3])
    (k4_a4 : A4 k[main_arg4] = A3 A0 k[main_arg4]) (k4_a5 : A4 k[main_arg5] = A3 A0 k[main_arg5])
    (hreg1 : A8 k[main_v52] = dense (R := 100000) (K := 64) (J := 32) (A7 A4 k[main_v51]) (A7 A4 k[main_arg4]))
    (k8_v7 : A8 k[main_v7] = A7 A4 k[main_v7]) (k8_v9 : A8 k[main_v9] = A7 A4 k[main_v9])
    (k8_v32 : A8 k[main_v32] = A7 A4 k[main_v32]) (k8_a5 : A8 k[main_arg5] = A7 A4 k[main_arg5]) :
    after (Cert.ReferenceIdeal.ValueP.ops (F := Ideal)) B0 r[Cert.ReferenceIdeal.main_v67]
      = after (Cert.KernelIdeal.Gen.hostOps2 (F := Ideal)) A8 k[main_v68] := by
  rw [Cert.ReferenceIdeal.Stages.after_ops]
  -- before the first product: the same endpoints and coefficients, the arguments untouched
  have hrow3 : A3 A0 k[main_v7] = B1 B0 r[Cert.ReferenceIdeal.main_v7] := norm_row A0 B0 e1
  have hcol3 : A3 A0 k[main_v9] = B1 B0 r[Cert.ReferenceIdeal.main_v9] := norm_col A0 B0 e1
  have hnorm3 : A3 A0 k[main_v32] = B1 B0 r[Cert.ReferenceIdeal.main_v32] := norm_coeff A0 B0 e1
  have a0_3 : (A3 A0 k[main_arg0] : (⟨2, ![100000, 128]⟩ : Shape).Idx → EReal) = B1 B0 r[Cert.ReferenceIdeal.main_arg0] :=
    (keptK_pre_main_arg0 A0).trans (e0.trans (keptR_norm_main_arg0 B0).symm)
  have a2_3 : (A3 A0 k[main_arg2] : (⟨2, ![128, 64]⟩ : Shape).Idx → EReal) = B1 B0 r[Cert.ReferenceIdeal.main_arg2] :=
    (keptK_pre_main_arg2 A0).trans (e2.trans (keptR_norm_main_arg2 B0).symm)
  have a3_3 : A3 A0 k[main_arg3] = B1 B0 r[Cert.ReferenceIdeal.main_arg3] :=
    (keptK_pre_main_arg3 A0).trans (e3.trans (keptR_norm_main_arg3 B0).symm)
  have a4_3 : A3 A0 k[main_arg4] = B1 B0 r[Cert.ReferenceIdeal.main_arg4] :=
    (keptK_pre_main_arg4 A0).trans (e4.trans (keptR_norm_main_arg4 B0).symm)
  have a5_3 : A3 A0 k[main_arg5] = B1 B0 r[Cert.ReferenceIdeal.main_arg5] :=
    (keptK_pre_main_arg5 A0).trans (e5.trans (keptR_norm_main_arg5 B0).symm)
  -- the first product: the region's array and the reference's operation are the same dense product
  have hr1 : B2 B0 r[Cert.ReferenceIdeal.main_v33]
      = dense (R := 100000) (K := 128) (J := 64) (B1 B0 r[Cert.ReferenceIdeal.main_arg0]) (B1 B0 r[Cert.ReferenceIdeal.main_arg2]) :=
    (valR_dot1 (B1 B0)).trans (dot1_dense _ _)
  have hP4 : A4 k[main_v33] = B2 B0 r[Cert.ReferenceIdeal.main_v33] :=
    hreg0.trans ((congrArg₂ (dense (R := 100000) (K := 128) (J := 64)) a0_3 a2_3).trans hr1.symm)
  have hrow4 : A4 k[main_v7] = B2 B0 r[Cert.ReferenceIdeal.main_v7] := k4_v7.trans (hrow3.trans (keptR_dot1_main_v7 (B1 B0)).symm)
  have hcol4 : A4 k[main_v9] = B2 B0 r[Cert.ReferenceIdeal.main_v9] := k4_v9.trans (hcol3.trans (keptR_dot1_main_v9 (B1 B0)).symm)
  have hnorm4 : A4 k[main_v32] = B2 B0 r[Cert.ReferenceIdeal.main_v32] := k4_v32.trans (hnorm3.trans (keptR_dot1_main_v32 (B1 B0)).symm)
  have a3_4 : A4 k[main_arg3] = B2 B0 r[Cert.ReferenceIdeal.main_arg3] := k4_a3.trans (a3_3.trans (keptR_dot1_main_arg3 (B1 B0)).symm)
  have a4_4 : A4 k[main_arg4] = B2 B0 r[Cert.ReferenceIdeal.main_arg4] := k4_a4.trans (a4_3.trans (keptR_dot1_main_arg4 (B1 B0)).symm)
  have a5_4 : A4 k[main_arg5] = B2 B0 r[Cert.ReferenceIdeal.main_arg5] := k4_a5.trans (a5_3.trans (keptR_dot1_main_arg5 (B1 B0)).symm)
  -- the first layer, then the narrowing of the format (nothing, on exact values)
  have hact6 : A6 A4 k[main_v50] = B3 B0 r[Cert.ReferenceIdeal.main_v50] := layer1 A4 (B2 B0) hP4 hrow4 hcol4 hnorm4 a3_4
  have hact7 : (A7 A4 k[main_v51] : (⟨2, ![100000, 64]⟩ : Shape).Idx → EReal) = B3 B0 r[Cert.ReferenceIdeal.main_v50] := (valK_cast (A6 A4)).trans hact6
  have hrow7 : A7 A4 k[main_v7] = B3 B0 r[Cert.ReferenceIdeal.main_v7] := (keptK_mid_main_v7 A4).trans (hrow4.trans (keptR_layer1_main_v7 (B2 B0)).symm)
  have hcol7 : A7 A4 k[main_v9] = B3 B0 r[Cert.ReferenceIdeal.main_v9] := (keptK_mid_main_v9 A4).trans (hcol4.trans (keptR_layer1_main_v9 (B2 B0)).symm)
  have hnorm7 : A7 A4 k[main_v32] = B3 B0 r[Cert.ReferenceIdeal.main_v32] := (keptK_mid_main_v32 A4).trans (hnorm4.trans (keptR_layer1_main_v32 (B2 B0)).symm)
  have a4_7 : (A7 A4 k[main_arg4] : (⟨2, ![64, 32]⟩ : Shape).Idx → EReal) = B3 B0 r[Cert.ReferenceIdeal.main_arg4] :=
    (keptK_mid_main_arg4 A4).trans (a4_4.trans (keptR_layer1_main_arg4 (B2 B0)).symm)
  have a5_7 : A7 A4 k[main_arg5] = B3 B0 r[Cert.ReferenceIdeal.main_arg5] := (keptK_mid_main_arg5 A4).trans (a5_4.trans (keptR_layer1_main_arg5 (B2 B0)).symm)
  -- the second product
  have hr2 : B4 B0 r[Cert.ReferenceIdeal.main_v51]
      = dense (R := 100000) (K := 64) (J := 32) (B3 B0 r[Cert.ReferenceIdeal.main_v50]) (B3 B0 r[Cert.ReferenceIdeal.main_arg4]) :=
    (valR_dot2 (B3 B0)).trans (dot2_dense _ _)
  have hP8 : A8 k[main_v52] = B4 B0 r[Cert.ReferenceIdeal.main_v51] :=
    hreg1.trans ((congrArg₂ (dense (R := 100000) (K := 64) (J := 32)) hact7 a4_7).trans hr2.symm)
  have hrow8 : A8 k[main_v7] = B4 B0 r[Cert.ReferenceIdeal.main_v7] := k8_v7.trans (hrow7.trans (keptR_dot2_main_v7 (B3 B0)).symm)
  have hcol8 : A8 k[main_v9] = B4 B0 r[Cert.ReferenceIdeal.main_v9] := k8_v9.trans (hcol7.trans (keptR_dot2_main_v9 (B3 B0)).symm)
  have hnorm8 : A8 k[main_v32] = B4 B0 r[Cert.ReferenceIdeal.main_v32] := k8_v32.trans (hnorm7.trans (keptR_dot2_main_v32 (B3 B0)).symm)
  have a5_8 : A8 k[main_arg5] = B4 B0 r[Cert.ReferenceIdeal.main_arg5] := k8_a5.trans (a5_7.trans (keptR_dot2_main_arg5 (B3 B0)).symm)
  -- the second layer
  exact (layer2 A8 (B4 B0) hP8 hrow8 hcol8 hnorm8 a5_8).symm

end

end Cert.Bridge

end
-- ==== Proof.lean ====
/-
  The certificate of a two-layer graph convolution: out = Â·relu(Â·(x·W1) + b1)·W2 + b2 with
  Â the symmetrically normalised adjacency (self loops added), applied edge by edge as a gather
  of source rows, a scaling by the edge's coefficient and a scatter-add into target rows.

  The kernel's program and the reference are the same host operations around two dense products.
  The kernel computes each product in a region of ten grid points, a block of 10000 rows of the
  left operand against the whole right operand, accumulated into zero, after narrowing both
  operands to a shorter float format; the reference computes each product whole.  On the exact
  values a change of float format is the identity and a product accumulated into zero is the sum
  over the contraction index, so each region's output array is the dense product of its input
  arrays — block by block the same sums the reference's whole product takes — and every host
  stretch, applied to agreeing operands, gives agreeing results.  The law between the two sides
  is only that a finite sum of extended reals does not depend on its indexing, so the
  precondition (finite inputs) is never opened.

  The three frames are the generated ones (the reference's is its run with the result dropped);
  the idealization rewrote nothing, so there is nothing to preserve.
-/
import proofs.«181033_j75969381531758_2_alg».proof.Defs
import proofs.«181033_j75969381531758_2_alg».proof.Proof.Gen.Kernel
import proofs.«181033_j75969381531758_2_alg».proof.Proof.Gen.Kernel.Skeleton
import proofs.«181033_j75969381531758_2_alg».proof.Proof.Gen.Kernel.Launch
import proofs.«181033_j75969381531758_2_alg».proof.Proof.Gen.Kernel.Points
import proofs.«181033_j75969381531758_2_alg».proof.Proof.Gen.Kernel.Frame
import proofs.«181033_j75969381531758_2_alg».proof.Proof.Gen.KernelIdeal
import proofs.«181033_j75969381531758_2_alg».proof.Proof.Gen.KernelIdeal.Skeleton
import proofs.«181033_j75969381531758_2_alg».proof.Proof.Gen.KernelIdeal.Launch
import proofs.«181033_j75969381531758_2_alg».proof.Proof.Gen.KernelIdeal.Points
import proofs.«181033_j75969381531758_2_alg».proof.Proof.Gen.KernelIdeal.Frame
import proofs.«181033_j75969381531758_2_alg».proof.Proof.Gen.ReferenceIdeal
import proofs.«181033_j75969381531758_2_alg».proof.Proof.Gen.Pre_finite_inputs
import proofs.«181033_j75969381531758_2_alg».proof.Proof.RefRun
import proofs.«181033_j75969381531758_2_alg».proof.Proof.RefArgs
import proofs.«181033_j75969381531758_2_alg».proof.Proof.KernelRun
import proofs.«181033_j75969381531758_2_alg».proof.Proof.Region0
import proofs.«181033_j75969381531758_2_alg».proof.Proof.Region1
import proofs.«181033_j75969381531758_2_alg».proof.Proof.Bridge
import Idealize.ShloMosaic.Adequacy
import Idealize.ShloMosaic.Init

noncomputable section

namespace Cert.Proof

open Idealize.ShloMosaic Idealize.ShloMosaic.TcCoe Idealize.SL.Sem

/-- The kernel's program runs and keeps its arguments. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and keeps its arguments: no operation of its line writes one. -/
theorem frame_ri : Cert.frame_ReferenceIdeal := fun m ρ _ =>
  (θ_run Cert.ReferenceIdeal.defs _ _).mono (fun _ h c =>
      ⟨(h c Cert.ReferenceIdeal.main_arg0).trans (Cert.ReferenceIdeal.Args.kept_main_arg0 m c),
       (h c Cert.ReferenceIdeal.main_arg1).trans (Cert.ReferenceIdeal.Args.kept_main_arg1 m c),
       (h c Cert.ReferenceIdeal.main_arg2).trans (Cert.ReferenceIdeal.Args.kept_main_arg2 m c),
       (h c Cert.ReferenceIdeal.main_arg3).trans (Cert.ReferenceIdeal.Args.kept_main_arg3 m c),
       (h c Cert.ReferenceIdeal.main_arg4).trans (Cert.ReferenceIdeal.Args.kept_main_arg4 m c),
       (h c Cert.ReferenceIdeal.main_arg5).trans (Cert.ReferenceIdeal.Args.kept_main_arg5 m c)⟩)
    (Cert.ReferenceIdeal.ValueP.run (F := Ideal) m ρ)

/-- The idealization rewrote no operation. -/
theorem preserves : Cert.preserves_Kernel_KernelIdeal := trivial

section
open Cert.KernelIdeal Cert.KernelIdeal.Gen Idealize.ShloMosaic.StableHlo

/-- The reference's result buffer ends at what the kernel program's fold leaves in its own, from memories agreeing
    on the six arguments. -/
theorem result_eq (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ) (c : Dev Cert.KernelIdeal.nD)
    (hagree : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    after (Cert.ReferenceIdeal.ValueP.ops (F := Ideal)) (launchContents m' c) (Proc.devRef .tc Cert.ReferenceIdeal.main_v67)
      = W9 m ρ c (Proc.devRef .tc main_v68) :=
  Cert.Bridge.result_eq_of (W0 m ρ c) (W4 m ρ c) (W8 m ρ c) (launchContents m' c)
    hagree.1.symm hagree.2.1.symm hagree.2.2.1.symm hagree.2.2.2.1.symm hagree.2.2.2.2.1.symm hagree.2.2.2.2.2.symm
    ((W4_arr m ρ c 2).trans (Cert.KernelIdeal.RegionValue.region0_array (V3 m ρ) c))
    (W4_of_ne m ρ c main_v7 (by decide)) (W4_of_ne m ρ c main_v9 (by decide)) (W4_of_ne m ρ c main_v32 (by decide))
    (W4_of_ne m ρ c main_arg3 (by decide)) (W4_of_ne m ρ c main_arg4 (by decide)) (W4_of_ne m ρ c main_arg5 (by decide))
    ((W8_arr m ρ c 2).trans (Cert.KernelIdeal.RegionValue.region1_array (V7 m ρ) c))
    (W8_of_ne m ρ c main_v7 (by decide)) (W8_of_ne m ρ c main_v9 (by decide)) (W8_of_ne m ρ c main_v32 (by decide))
    (W8_of_ne m ρ c main_arg5 (by decide))

end

/-- From memories agreeing on the arguments both programs end with the same result array: the kernel program's is
    what its last stretch leaves in the result buffer from the second region's exit contents, and the reference's
    line leaves the same contents.  The regions' facts are instantiated here: each leaves its output array at the
    dense product of its input arrays and keeps every other buffer. -/
theorem algebraic : Cert.algebraic_KernelIdeal_ReferenceIdeal := by
  intro m ρ m' ρ' _ hagree
  refine ⟨fun c => Cert.KernelIdeal.Gen.W9 m ρ c (Proc.devRef .tc Cert.KernelIdeal.main_v68),
    Cert.KernelIdeal.Whole.run (F := Ideal) m ρ, ?_⟩
  refine (θ_run Cert.ReferenceIdeal.defs _ _).mono (fun _ h c =>
      ⟨(h c Cert.ReferenceIdeal.main_v67).trans (result_eq m ρ m' c (hagree c)),
       (h c Cert.ReferenceIdeal.main_arg0).trans (Cert.ReferenceIdeal.Args.kept_main_arg0 m' c),
       (h c Cert.ReferenceIdeal.main_arg1).trans (Cert.ReferenceIdeal.Args.kept_main_arg1 m' c),
       (h c Cert.ReferenceIdeal.main_arg2).trans (Cert.ReferenceIdeal.Args.kept_main_arg2 m' c),
       (h c Cert.ReferenceIdeal.main_arg3).trans (Cert.ReferenceIdeal.Args.kept_main_arg3 m' c),
       (h c Cert.ReferenceIdeal.main_arg4).trans (Cert.ReferenceIdeal.Args.kept_main_arg4 m' c),
       (h c Cert.ReferenceIdeal.main_arg5).trans (Cert.ReferenceIdeal.Args.kept_main_arg5 m' c)⟩)
    (Cert.ReferenceIdeal.ValueP.run (F := Ideal) m' ρ')

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
